-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256 : Shape := ⟨3, ![8, 256, 256]⟩
abbrev S512x128 : Shape := ⟨2, ![512, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8x256x256 .f32) (main_arg1 : FVec F S512x128 .f32) (main_arg2 : FVec F S128 .f32) (main_arg3 : FVec F S128x8 .f32) (main_arg4 : FVec F S8 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_v13 main_v16
-- ==== Kernel.lean ====
abbrev S8x256x256 : Shape := ⟨3, ![8, 256, 256]⟩
abbrev S512x128 : Shape := ⟨2, ![512, 128]⟩
abbrev S128 : Shape := ⟨1, ![128]⟩
abbrev S128x8 : Shape := ⟨2, ![128, 8]⟩
abbrev S8 : Shape := ⟨1, ![8]⟩
abbrev S256x128 : Shape := ⟨2, ![256, 128]⟩
abbrev S1x128 : Shape := ⟨2, ![1, 128]⟩
abbrev S1x8 : Shape := ⟨2, ![1, 8]⟩
abbrev S8x256x2048 : Shape := ⟨3, ![8, 256, 2048]⟩
abbrev S1x128x256 : Shape := ⟨3, ![1, 128, 256]⟩
abbrev S1x128x1024 : Shape := ⟨3, ![1, 128, 1024]⟩
abbrev S128x256 : Shape := ⟨2, ![128, 256]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S16384x8 : Shape := ⟨2, ![16384, 8]⟩
abbrev S128x1024 : Shape := ⟨2, ![128, 1024]⟩
abbrev S8x256x256x8 : Shape := ⟨4, ![8, 256, 256, 8]⟩

abbrev nBuf : Space → Nat
  | .hbm => 11
  | .vmem => 11
  | .smem => 0
  | _ => 0

abbrev bufTy : (tb : Table) → Fin (tcTables nBuf tb) → BufTy
  | .hbm, ⟨0, _⟩ => ⟨S8x256x256, .f32⟩
  | .hbm, ⟨1, _⟩ => ⟨S512x128, .f32⟩
  | .hbm, ⟨2, _⟩ => ⟨S128, .f32⟩
  | .hbm, ⟨3, _⟩ => ⟨S128x8, .f32⟩
  | .hbm, ⟨4, _⟩ => ⟨S8, .f32⟩
  | .hbm, ⟨5, _⟩ => ⟨S256x128, .f32⟩
  | .hbm, ⟨6, _⟩ => ⟨S256x128, .f32⟩
  | .hbm, ⟨7, _⟩ => ⟨S1x128, .f32⟩
  | .hbm, ⟨8, _⟩ => ⟨S1x8, .f32⟩
  | .hbm, ⟨9, _⟩ => ⟨S8x256x2048, .f32⟩
  | .hbm, ⟨10, _⟩ => ⟨S8x256x256x8, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S128x8, .f32⟩
  | .local _ .vmem, ⟨8, _⟩ => ⟨S1x8, .f32⟩
  | .local _ .vmem, ⟨9, _⟩ => ⟨S1x128x1024, .f32⟩
  | .local _ .vmem, ⟨10, _⟩ => ⟨S1x128x1024, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  slices_S512x128_S256x128_0_0 : S512x128.Slices ![0, 0] S256x128
  slices_S512x128_S256x128_256_0 : S512x128.Slices ![256, 0] S256x128
  shapeCasts_S128_S1x128 : S128.ShapeCasts S1x128
  shapeCasts_S8_S1x8 : S8.ShapeCasts S1x8
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  inb_S128x8_S128x8_0_0 : ∀ a, (![0, 0] : Fin 2 → Nat) a + S128x8.size a ≤ S128x8.size a
  h_S128x8 : 0 < S128x8.numel
  shapeCasts_S128x128x128_S16384x128 : S128x128x128.ShapeCasts S16384x128
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16384x8 : S1x8.Broadcasts S16384x8
  shapeCasts_S16384x8_S128x1024 : S16384x8.ShapeCasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  shapeCasts_S8x256x2048_S8x256x256x8 : S8x256x2048.ShapeCasts S8x256x256x8
  dot_S128x256_S256x128_S128x128_1_0_0_1_n_n_wf : DotDims.WF S128x256 S256x128 S128x128 [1] [0] [0] [1] [] []
  dot_S16384x128_S128x8_S16384x8_1_0_0_1_n_n_wf : DotDims.WF S16384x128 S128x8 S16384x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S8x256x256.size a
  hwx0_0 : ∀ i : grid0.Coords, EltTy.bits .f32 = 32 ∨ (Rect.block (s := S8x256x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S8x256x256.size a
  hwx0_1 : ∀ i : grid0.Coords, EltTy.bits .f32 = 32 ∨ (Rect.block (s := S8x256x256) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8.size a ≤ S128x8.size a
  hwx0_5 : ∀ i : grid0.Coords, EltTy.bits .f32 = 32 ∨ (Rect.block (s := S128x8) S128x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1024.size a ≤ S8x256x2048.size a
  hwx0_7 : ∀ i : grid0.Coords, EltTy.bits .f32 = 32 ∨ (Rect.block (s := S8x256x2048) S1x128x1024.size (cc0_transform_7 i) (hinb0_7 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x256 : Shape := ⟨3, ![8, 256, 256]⟩
abbrev S512x128 : Shape := ⟨2, ![512, 128]⟩
abbrev S128 : Shape := ⟨1, ![128]⟩
abbrev S128x8 : Shape := ⟨2, ![128, 8]⟩
abbrev S8 : Shape := ⟨1, ![8]⟩
abbrev S256x128 : Shape := ⟨2, ![256, 128]⟩
abbrev S8x256x128 : Shape := ⟨3, ![8, 256, 128]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩
abbrev S_ : Shape := ⟨0, ![]⟩
abbrev S8x256x256x8 : Shape := ⟨4, ![8, 256, 256, 8]⟩
abbrev S1x1x1x8 : Shape := ⟨4, ![1, 1, 1, 8]⟩

abbrev nBuf : Space → Nat
  | .hbm => 32
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S512x128, .f32⟩
  | .hbm, ⟨2, _⟩ => ⟨S128, .f32⟩
  | .hbm, ⟨3, _⟩ => ⟨S128x8, .f32⟩
  | .hbm, ⟨4, _⟩ => ⟨S8, .f32⟩
  | .hbm, ⟨5, _⟩ => ⟨S256x128, .f32⟩
  | .hbm, ⟨6, _⟩ => ⟨S8x256x128, .f32⟩
  | .hbm, ⟨7, _⟩ => ⟨S256x128, .f32⟩
  | .hbm, ⟨8, _⟩ => ⟨S8x256x128, .f32⟩
  | .hbm, ⟨9, _⟩ => ⟨S8x256x1x128, .f32⟩
  | .hbm, ⟨10, _⟩ => ⟨S8x1x256x128, .f32⟩
  | .hbm, ⟨11, _⟩ => ⟨S8x256x256x128, .f32⟩
  | .hbm, ⟨12, _⟩ => ⟨S8x256x256x128, .f32⟩
  | .hbm, ⟨13, _⟩ => ⟨S8x256x256x128, .f32⟩
  | .hbm, ⟨14, _⟩ => ⟨S1x1x1x128, .f32⟩
  | .hbm, ⟨15, _⟩ => ⟨S8x256x256x128, .f32⟩
  | .hbm, ⟨16, _⟩ => ⟨S8x256x256x128, .f32⟩
  | .hbm, ⟨17, _⟩ => ⟨S_, .f32⟩
  | .hbm, ⟨18, _⟩ => ⟨S8x256x256x128, .f32⟩
  | .hbm, ⟨19, _⟩ => ⟨S8x256x256x128, .f32⟩
  | .hbm, ⟨20, _⟩ => ⟨S8x256x256x8, .f32⟩
  | .hbm, ⟨21, _⟩ => ⟨S1x1x1x8, .f32⟩
  | .hbm, ⟨22, _⟩ => ⟨S8x256x256x8, .f32⟩
  | .hbm, ⟨23, _⟩ => ⟨S8x256x256x8, .f32⟩
  | .hbm, ⟨24, _⟩ => ⟨S8x256x256x8, .f32⟩
  | .hbm, ⟨25, _⟩ => ⟨S8x256x256x8, .f32⟩
  | .hbm, ⟨26, _⟩ => ⟨S_, .f32⟩
  | .hbm, ⟨27, _⟩ => ⟨S8x256x256x8, .f32⟩
  | .hbm, ⟨28, _⟩ => ⟨S8x256x256x8, .f32⟩
  | .hbm, ⟨29, _⟩ => ⟨S_, .f32⟩
  | .hbm, ⟨30, _⟩ => ⟨S8x256x256x8, .f32⟩
  | .hbm, ⟨31, _⟩ => ⟨S8x256x256x8, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S512x128_S256x128_0_0 : S512x128.Slices ![0, 0] S256x128
  slices_S512x128_S256x128_256_0 : S512x128.Slices ![256, 0] S256x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S8_S1x1x1x8_3 : S8.BroadcastsInDim S1x1x1x8 (![3] : Fin 1 → Fin S1x1x1x8.rank)
  bcast_S1x1x1x8_S8x256x256x8_0_1_2_3 : S1x1x1x8.BroadcastsInDim S8x256x256x8 (![0, 1, 2, 3] : Fin 4 → Fin S8x256x256x8.rank)
  bcast_S_S8x256x256x8 : S_.BroadcastsInDim S8x256x256x8 (![] : Fin 0 → Fin S8x256x256x8.rank)
  dot_S8x256x256_S256x128_S8x256x128_2_0_01_1_n_n_wf : DotDims.WF S8x256x256 S256x128 S8x256x128 [2] [0] [0, 1] [1] [] []
  dot_S8x256x256x128_S128x8_S8x256x256x8_3_0_012_1_n_n_wf : DotDims.WF S8x256x256x128 S128x8 S8x256x256x8 [3] [0] [0, 1, 2] [1] [] []

variable [Facts₀]

def dot_S8x256x256_S256x128_S8x256x128_2_0_01_1_n_n : DotDims S8x256x256 S256x128 S8x256x128 where
  lhsContracting := [2]
  rhsContracting := [0]
  lhsNonContracting := [0, 1]
  rhsNonContracting := [1]
  lhsBatch := []
  rhsBatch := []
  wf := dot_S8x256x256_S256x128_S8x256x128_2_0_01_1_n_n_wf
def dot_S8x256x256x128_S128x8_S8x256x256x8_3_0_012_1_n_n : DotDims S8x256x256x128 S128x8 S8x256x256x8 where
  lhsContracting := [3]
  rhsContracting := [0]
  lhsNonContracting := [0, 1, 2]
  rhsNonContracting := [1]
  lhsBatch := []
  rhsBatch := []
  wf := dot_S8x256x256x128_S128x8_S8x256x256x8_3_0_012_1_n_n_wf

class Facts : Prop extends Facts₀ where

variable [Facts]
-- ==== Proof.BodyBits.lean ====
/-
  The kernel body at one grid point, as a separation-logic triple, and the pipeline's proof data.

  At a grid point (b, i, j) the body is handed eight staging buffers: rows 128·i … 128·i+127 and rows
  128·j … 128·j+127 of batch b of the slot array (two windows on ONE array), the two halves of the first
  weight matrix, the first bias as a row, the second weight matrix, the second bias as a row, and the
  output block of 128 rows by 1024 lanes. It loads the seven inputs whole, computes one pure function of
  them, and stores that function's value over the whole output block. So after the body the seven input
  buffers hold what they held, and the output buffer holds the value of that function at the seven
  blocks, whatever it held before. An input buffer holds its window's block at every point, whether or
  not the pipeline moved data into it there: when nothing is moved the block index has not changed.
-/
import proofs.«164264_j18141941858697_2_alg».proof.Proof.Gen.Kernel.Launch
import proofs.«164264_j18141941858697_2_alg».proof.Proof.Gen.Kernel.Skeleton
import proofs.«164264_j18141941858697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffer contents when the region is entered: the launch contents after the four host operations
    that precede the region (two slices of the first weight matrix, two reshapes of the biases). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what its one store leaves -/

abbrev rA : Rect S1x128x256 := Rect.unit (s := S1x128x256) ![0, 0, 0] S1x128x256.size inb_S1x128x256_S1x128x256_0_0_0
abbrev rW : Rect S256x128 := Rect.unit (s := S256x128) ![0, 0] S256x128.size inb_S256x128_S256x128_0_0
abbrev rB1 : Rect S1x128 := Rect.unit (s := S1x128) ![0, 0] S1x128.size inb_S1x128_S1x128_0_0
abbrev rW2 : Rect S128x8 := Rect.unit (s := S128x8) ![0, 0] S128x8.size inb_S128x8_S128x8_0_0
abbrev rB2 : Rect S1x8 := Rect.unit (s := S1x8) ![0, 0] S1x8.size inb_S1x8_S1x8_0_0
abbrev rO : Rect S1x128x1024 := Rect.unit (s := S1x128x1024) ![0, 0, 0] S1x128x1024.size inb_S1x128x1024_S1x128x1024_0_0_0

/-- The output block after the body, from the seven input blocks: its one store, of the body's pure function of
    the loads, over the whole block. -/
def outBlk (x0 x1 : Vec F S1x128x256 .f32) (x2 x3 : Vec F S256x128 .f32) (x4 : Vec F S1x128 .f32) (x5 : Vec F S128x8 .f32) (x6 : Vec F S1x8 .f32) :
    Vec F S1x128x1024 .f32 :=
  View.canon [⟨rO, k0_pay1 (k0_pay2 (View.ld x0 rA) (View.ld x1 rA) (View.ld x2 rW) (View.ld x3 rW) (View.ld x4 rB1) (View.ld x5 rW2) (View.ld x6 rB2))⟩]

/-- The store's rectangle is the whole block. -/
theorem coverO (p0 : Vec F S1x128x1024 .f32) (y : S1x128x1024.Idx) :
    ∃ pc ∈ ([⟨rO, p0⟩] : List (View.Piece (Elt F) S1x128x1024 .f32)), y ∈ pc.1.set :=
  View.cover_of_tiled [⟨rO, p0⟩] S1x128x1024.size (by rfl) y

/-! ## The body's triple -/

set_option maxHeartbeats 2000000 in
/-- The body on whole staging memrefs, the inputs' at read contents `x0 … x6` and the output's at anything, runs
    to the continuation holding the inputs' as they were and the output's at `outBlk` of the inputs'. -/
theorem sound_kernel (c : Dev nD) (E : Set ℕ) (i : grid0.Coords)
    (arg3 : Memref sig .tc .vmem S1x128x256 .f32) (harg3 : arg3.IsWhole) (arg4 : Memref sig .tc .vmem S1x128x256 .f32) (harg4 : arg4.IsWhole)
    (arg5 : Memref sig .tc .vmem S256x128 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S128x8 .f32) (harg8 : arg8.IsWhole)
    (arg9 : Memref sig .tc .vmem S1x8 .f32) (harg9 : arg9.IsWhole) (arg10 : Memref sig .tc .vmem S1x128x1024 .f32) (harg10 : arg10.IsWhole)
    (x0 x1 : Vec F S1x128x256 .f32) (x2 x3 : Vec F S256x128 .f32) (x4 : Vec F S1x128 .f32) (x5 : Vec F S128x8 .f32) (x6 : Vec F S1x8 .f32)
    (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (outBlk x0 x1 x2 x3 x4 x5 x6)) -∗ K ⟨⟩))
      ⊢ wp frame (wpE (defs₀ (F := F)) Variants.none c none) E
          (cc0__fused_kernel i arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.Kernel.Body

end
-- ==== Proof.DatBits.lean ====
/-
  The pipeline's proof data and the body obligation at every grid point.

  The slot array is read through two windows (rows of the i-tile and rows of the j-tile), so neither window
  can hold it alone: each holds half of the full share, which suffices to read. Every other array belongs
  to one window, at the full share. After the body at a point every input buffer holds its window's block
  there and the output buffer holds the body's function of the seven input blocks.
-/
import proofs.«164264_j18141941858697_2_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window holds: the two windows on the slot array a half each. -/
def winShare : Fin cfg0.W → PosShare TreeShare
  | ⟨0, _⟩ => fullShare.left
  | ⟨1, _⟩ => fullShare.right
  | _ => fullShare

/-- The proof data on core `c`: the arrays as the region finds them; after the body at point `t` each input
    buffer at its block and the output buffer at the body's function of the input blocks; the invariant is the
    scoped buffers that no window stages (there are none), untouched; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.scopedRest spec0 c
  q := winShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlk (iblk m c 0 t) (iblk m c 1 t) (iblk m c 2 t) (iblk m c 3 t) (iblk m c 4 t) (iblk m c 5 t) (iblk m c 6 t) := by dsimp only [dats]

/-! ## Each input buffer holds its block at every point, moved there or not -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant
    and the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.RunBits.lean ====
/-
  The launch: every weakly fair execution of the program terminates, and what the final memory holds.

  The program is four host operations (two slices of the first weight matrix, two reshapes of the biases),
  the kernel region over a grid of 32 points, and one host reshape of the region's result. The region holds the
  slot array through two windows, half a share each: the buffer, whole at the full share when the region is
  entered, is split along the share into the two halves, which is enough to read it and keeps it unchanged; the
  two halves come back at the region's exit. The reshape after the region reads the result array and writes its
  own buffer, touching nothing else.
-/
import proofs.«164264_j18141941858697_2_alg».proof.Proof.DatBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape that follows it, at the contents after the four host
    operations that precede it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays, window by window -/

/-- A buffer of the core, whole, at a share. -/
abbrev pt (c : Dev nD) (b : Ref sig .tc) (q : PosShare TreeShare) (f : Buf (Elt F) ((c : Thread nD τ).loc b)) : sProp 𝕄 :=
  ((c : Thread nD τ).loc b) ↦{q} f

theorem full_halves : (fullShare : PosShare TreeShare) ∈ fullShare.left ·? fullShare.right := by
  rw [PosShare.left_op_right]; exact Part.mem_some _

theorem share_0 (c : Dev nD) : (dats m 0 c).share 0 = fullShare.left := by unfold Dat.share; rfl
theorem share_1 (c : Dev nD) : (dats m 0 c).share 1 = fullShare.right := by unfold Dat.share; rfl
theorem share_2 (c : Dev nD) : (dats m 0 c).share 2 = fullShare := by unfold Dat.share; rfl
theorem share_3 (c : Dev nD) : (dats m 0 c).share 3 = fullShare := by unfold Dat.share; rfl
theorem share_4 (c : Dev nD) : (dats m 0 c).share 4 = fullShare := by unfold Dat.share; rfl
theorem share_5 (c : Dev nD) : (dats m 0 c).share 5 = fullShare := by unfold Dat.share; rfl
theorem share_6 (c : Dev nD) : (dats m 0 c).share 6 = fullShare := by unfold Dat.share; rfl
theorem share_7 (c : Dev nD) : (dats m 0 c).share 7 = fullShare := by unfold Dat.share; rfl

/-- The proof data's arrays at contents `Fa`, one by one: the slot array twice, a half each. -/
theorem arrays_chain (c : Dev nD) (Fa : (w : Fin cfg0.W) → Buf (Elt F) ((cfg0.win w).arr.view.loc (c : Thread nD τ))) :
    ((dats m 0 c).arrays Fa : sProp 𝕄)
      = iprop(pt c main_arg0 fullShare.left (Fa 0) ∗ pt c main_arg0 fullShare.right (Fa 1) ∗ pt c main_v0 fullShare (Fa 2)
          ∗ pt c main_v1 fullShare (Fa 3) ∗ pt c main_v2 fullShare (Fa 4) ∗ pt c main_arg3 fullShare (Fa 5)
          ∗ pt c main_v3 fullShare (Fa 6) ∗ pt c main_v4 fullShare (Fa 7)) := by
  unfold Dat.arrays
  rw [show (bigSep Finset.univ fun w : Fin cfg0.W => (cfg0.win w).arr.view.loc (c : Thread nD τ) ↦[(cfg0.win w).arr.view.set]{(dats m 0 c).share w} Fa w : sProp 𝕄)
      = bigSep Finset.univ fun w : Fin cfg0.W => (((c : Thread nD τ).loc (Pipeline.arrRef spec0 w)) ↦{(dats m 0 c).share w} Fa w : sProp 𝕄)
    from bigSep_congr fun w _ => by rw [(arr_whole0 w).set_eq_univ]]
  rw [bigSep_W0, share_0, share_1, share_2, share_3, share_4, share_5, share_6, share_7]

/-- The distinct buffers behind the windows, whole at the full share, make the proof data's arrays at entry: the
    slot array's buffer splits along the share. -/
theorem hsplit (c : Dev nD) : (Pipeline.arrBufs spec0 c (V m c) : sProp 𝕄) ⊢ (dats m 0 c).arrays ((dats m 0 c).arrAt · 0) := by
  rw [arrays_chain]
  unfold Pipeline.arrBufs
  rw [bigSep_eq_bigSepL_of_eq [main_arg0, main_v0, main_v1, main_v2, main_arg3, main_v3, main_v4] (by decide) (by decide)]
  show iprop(pt c main_arg0 fullShare (V m c main_arg0) ∗ pt c main_v0 fullShare (V m c main_v0) ∗ pt c main_v1 fullShare (V m c main_v1)
      ∗ pt c main_v2 fullShare (V m c main_v2) ∗ pt c main_arg3 fullShare (V m c main_arg3) ∗ pt c main_v3 fullShare (V m c main_v3)
      ∗ pt c main_v4 fullShare (V m c main_v4)) ⊢ _
  iintro ⟨H0, H2, H3, H4, H5, H6, H7⟩
  ihave H01 := (pointsTo_share full_halves).1 $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-! ## No host operation before the region writes an argument array -/

theorem V_arg (c : Dev nD) (b : Ref sig .tc) (hb : ∀ op ∈ (hostOps0 : List (HloOp τ sig (Elt F))), Proc.devRef .tc b ∉ op.writes) :
    V m c b = m ((c : Thread nD τ).loc b) := by
  show StableHlo.after (List.flatten [hostOps0]) (fun b => m (c, b)) (Proc.devRef .tc b) = _
  rw [List.flatten_cons, List.flatten_nil, List.append_nil]
  exact StableHlo.after_of_forall_not_mem _ _ hb

theorem hostOps0_keeps (b : Ref sig .tc) (h0 : b ≠ main_v0) (h1 : b ≠ main_v1) (h2 : b ≠ main_v2) (h3 : b ≠ main_v3) :
    ∀ op ∈ (hostOps0 : List (HloOp τ sig (Elt F))), Proc.devRef .tc b ∉ op.writes := by
  intro op hop
  simp only [hostOps0, List.mem_cons, List.mem_nil_iff, or_false] at hop
  rcases hop with rfl | rfl | rfl | rfl
  all_goals simp only [StableHlo.unary_writes, StableHlo.reshape_writes, Finset.mem_singleton]
  · exact StableHlo.devRef_ne_of_ne h0
  · exact StableHlo.devRef_ne_of_ne h1
  · exact StableHlo.devRef_ne_of_ne h2
  · exact StableHlo.devRef_ne_of_ne h3

theorem V_main_arg0 (c : Dev nD) : V m c main_arg0 = m ((c : Thread nD τ).loc main_arg0) :=
  V_arg m c main_arg0 (hostOps0_keeps main_arg0 (by decide) (by decide) (by decide) (by decide))
theorem V_main_arg1 (c : Dev nD) : V m c main_arg1 = m ((c : Thread nD τ).loc main_arg1) :=
  V_arg m c main_arg1 (hostOps0_keeps main_arg1 (by decide) (by decide) (by decide) (by decide))
theorem V_main_arg2 (c : Dev nD) : V m c main_arg2 = m ((c : Thread nD τ).loc main_arg2) :=
  V_arg m c main_arg2 (hostOps0_keeps main_arg2 (by decide) (by decide) (by decide) (by decide))
theorem V_main_arg3 (c : Dev nD) : V m c main_arg3 = m ((c : Thread nD τ).loc main_arg3) :=
  V_arg m c main_arg3 (hostOps0_keeps main_arg3 (by decide) (by decide) (by decide) (by decide))
theorem V_main_arg4 (c : Dev nD) : V m c main_arg4 = m ((c : Thread nD τ).loc main_arg4) :=
  V_arg m c main_arg4 (hostOps0_keeps main_arg4 (by decide) (by decide) (by decide) (by decide))

/-! ## The reshape after the region -/

/-- The core's buffers when the region is left: the result array at what the write-backs made it, every other
    buffer at its entry contents. -/
def Vexit (c : Dev nD) : Valuation τ sig (Elt F) :=
  Function.update (V0 m c) (Proc.devRef .tc main_v4) ((dats m 0 c).arrAt 7 cfg0.N)
/-- And after the reshape of the result array. -/
def Vend (c : Dev nD) : Valuation τ sig (Elt F) := StableHlo.after hostOps1 (Vexit m c)

/-- The two buffers the reshape touches. -/
def tailBufs : Finset (DevRef τ sig) := {Proc.devRef .tc main_v4, Proc.devRef .tc main_v5}

theorem tailBufs_eq (c : Dev nD) (W : Valuation τ sig (Elt F)) : (StableHlo.held (c : Thread nD τ) tailBufs W : sProp 𝕄)
    = iprop(pt c main_v4 fullShare (W (Proc.devRef .tc main_v4)) ∗ pt c main_v5 fullShare (W (Proc.devRef .tc main_v5))) := by
  unfold StableHlo.held
  rw [bigSep_eq_bigSepL_of_eq [Proc.devRef .tc main_v4, Proc.devRef .tc main_v5] (by decide) (by decide)]
  rfl

theorem hostOps1_in : ∀ ops ∈ ([hostOps1] : List (List (HloOp τ sig (Elt F)))), ∀ op ∈ ops, op.bufs ⊆ tailBufs := by
  intro ops hops op hop
  simp only [List.mem_cons, List.mem_nil_iff, or_false] at hops
  subst hops
  simp only [hostOps1, List.mem_cons, List.mem_nil_iff, or_false] at hop
  subst hop
  show ({Proc.devRef .tc main_v4, Proc.devRef .tc main_v5} : Finset (DevRef τ sig)) ⊆ tailBufs
  decide

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem hostOps1_keeps (b : Ref sig .tc) (h5 : b ≠ main_v5) :
    ∀ op ∈ (hostOps1 : List (HloOp τ sig (Elt F))), Proc.devRef .tc b ∉ op.writes := by
  intro op hop
  simp only [hostOps1, List.mem_cons, List.mem_nil_iff, or_false] at hop
  subst hop
  simp only [StableHlo.reshape_writes, Finset.mem_singleton]
  exact StableHlo.devRef_ne_of_ne h5

/-- The reshape leaves the result array as the region left it, -/
theorem Vend_v4 (c : Dev nD) : Vend m c (Proc.devRef .tc main_v4) = (dats m 0 c).arrAt 7 cfg0.N := by
  unfold Vend
  rw [StableHlo.after_of_forall_not_mem _ _ (hostOps1_keeps main_v4 (by decide))]
  unfold Vexit
  exact Function.update_self ..

/-- and every buffer other than its own result and the result array as the region found it. -/
theorem Vend_other (c : Dev nD) (b : Ref sig .tc) (h4 : b ≠ main_v4) (h5 : b ≠ main_v5) : Vend m c (Proc.devRef .tc b) = V m c b := by
  unfold Vend
  rw [StableHlo.after_of_forall_not_mem _ _ (hostOps1_keeps b h5)]
  unfold Vexit
  exact Function.update_of_ne (StableHlo.devRef_ne_of_ne h4) ..

/-- The lines after the region: from the arrays as the region left them and the bypassing buffers as it found them,
    the reshape runs and hands back the arrays unchanged and the bypassing buffers at the contents after it. -/
theorem htail (c : Dev nD) (Q' : PUnit → sProp 𝕄) :
    iprop((iprop((dats m 0 c).arrays ((dats m 0 c).arrAt · cfg0.N)
              ∗ Pipeline.unscopedRest spec0 c (fun b => Vend m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  have hw := Pipeline.wp_seqs_then (Ix := Unit) (Name := ℕ) (U := UR sig nD τ) (Lvl := ℕ) (pcfgs (F := F)) defs₀ Variants.none c tailBufs []
    (K := Q') [hostOps1] hostOps1_in hostOps1_fresh' (Vexit m c)
  rw [tailBufs_eq, tailBufs_eq] at hw
  rw [show StableHlo.after ([hostOps1] : List (List (HloOp τ sig (Elt F)))).flatten (Vexit m c) = Vend m c from by
    unfold Vend; rw [List.flatten_cons, List.flatten_nil, List.append_nil]] at hw
  rw [Vend_v4] at hw
  rw [show Vexit m c (Proc.devRef .tc main_v4) = (dats m 0 c).arrAt 7 cfg0.N from by unfold Vexit; exact Function.update_self ..,
    show Vexit m c (Proc.devRef .tc main_v5) = V m c main_v5 from by unfold Vexit; exact Function.update_of_ne (StableHlo.devRef_ne_of_ne (by decide)) ..] at hw
  rw [arrays_chain, unscopedRest0_eq, unscopedRest0_eq,
    Vend_other m c main_arg1 (by decide) (by decide), Vend_other m c main_arg2 (by decide) (by decide), Vend_other m c main_arg4 (by decide) (by decide)]
  iintro ⟨Hk, Hb, ⟨Ha, Hb', H2, H3, H4, H5, H6, H7⟩, ⟨R1, R2, R4, R5⟩⟩
  simp only [List.map_cons, List.map_nil, List.append_nil] at hw
  iapply hw $$ [Hb H7 R5]
  · isplitl [Hb]; · iexact Hb
    isplitl [H7]; · iexact H7
    iexact R5
  iintro ⟨Hb, H7, R5⟩
  rw [Pipeline.chain_nil, wp_pure]
  imodintro
  iapply Hk
  isplitl [Ha Hb' H2 H3 H4 H5 H6 H7]
  · isplitl [Ha]; · iexact Ha
    isplitl [Hb']; · iexact Hb'
    isplitl [H2]; · iexact H2
    isplitl [H3]; · iexact H3
    isplitl [H4]; · iexact H4
    isplitl [H5]; · iexact H5
    isplitl [H6]; · iexact H6
    iexact H7
  isplitl [R1]; · iexact R1
  isplitl [R2]; · iexact R2
  isplitl [R4]; · iexact R4
  iexact R5

/-! ## The run -/

/-- The core's unscoped buffers that are no window's array. -/
abbrev restSet : Finset (Ref sig .tc) := (Finset.univ.filter fun b : Ref sig .tc => ¬ b.isScoped) \ Finset.univ.image (Pipeline.arrRef spec0)

-- the launch theorem's implicit arguments are found by unifying its conclusion with this one, which takes unfolding
-- plain definitions in a metavariable's type
set_option backward.isDefEq.respectTransparency.types false in
/-- At any float values, from any memory with zero counters: every weakly fair execution of @main on the TensorCores
    terminates, and every final state has the result buffer at the reshape of what the region's write-backs made
    the kernel's result array, and the five argument arrays as launched. -/
theorem run_main : θ_run defs (onTc (τ := τ) (main (F := F))) (s₀ m ρ) (fun r => ∀ c : Dev nD,
      r.2.mem ((c.tc : Thread nD τ).loc main_v5) = Vend m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m) (hpf := fun _ k => k.elim0)
    (X := fun _ => iprop(emp)) (Y := fun _ => iprop(emp))
    (Z := fun c => Pipeline.unscopedRest spec0 c (V m c))
    (Z' := fun c => Pipeline.unscopedRest spec0 c (fun b => Vend m c (Proc.devRef .tc b)))
    (hX := fun c => by
      rw [Pipeline.unscopedRestP_none]
      iintro H
      isplitr; · iempintro
      iexact H)
    (hin := fun c => by
      rw [show (dats m 0 c).Φ 0 = Pipeline.scopedRest spec0 c from rfl]
      iintro ⟨-, -, HR⟩; iexact HR)
    (hout := fun c => by
      rw [show (dats m 0 c).Φ (Fin.last _) = Pipeline.scopedRest spec0 c from rfl]
      iintro HR
      isplitr; · iempintro
      iexact HR)
    (htail := htail m)
    (QY := fun c s => ∀ b ∈ restSet, s.mem ((c.tc : Thread nD τ).loc b) = Vend m c (Proc.devRef .tc b))
    (hY := fun c s' => by
      iintro ⟨-, HU, HSI⟩
      unfold Pipeline.unscopedRest
      imodintro
      iapply (pointsTo_read_all restSet (fun b => (c.tc : Thread nD τ).loc b) (fun b => Vend m c (Proc.devRef .tc b)) s')
      isplitl [HU] <;> iassumption)
    (hQ := fun s h c => by
      obtain ⟨harrs, -, hrest⟩ := h c
      refine ⟨hrest main_v5 (by decide), ?_, ?_, ?_, ?_, ?_⟩
      · exact (harrs 0).trans (((dats m 0 c).arrAt_in 0 rfl _).trans ((A_eq m c 0).trans (V_main_arg0 m c)))
      · exact (hrest main_arg1 (by decide)).trans ((Vend_other m c main_arg1 (by decide) (by decide)).trans (V_main_arg1 m c))
      · exact (hrest main_arg2 (by decide)).trans ((Vend_other m c main_arg2 (by decide) (by decide)).trans (V_main_arg2 m c))
      · exact (harrs 5).trans (((dats m 0 c).arrAt_in 5 rfl _).trans ((A_eq m c 5).trans (V_main_arg3 m c)))
      · exact (hrest main_arg4 (by decide)).trans ((Vend_other m c main_arg4 (by decide) (by decide)).trans (V_main_arg4 m c)))

/-- The frame: the program runs to the end, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Body

end
-- ==== Proof.BodyIdeal.lean ====
/-
  The kernel body at one grid point, as a separation-logic triple, and the pipeline's proof data.

  At a grid point (b, i, j) the body is handed eight staging buffers: rows 128·i … 128·i+127 and rows
  128·j … 128·j+127 of batch b of the slot array (two windows on ONE array), the two halves of the first
  weight matrix, the first bias as a row, the second weight matrix, the second bias as a row, and the
  output block of 128 rows by 1024 lanes. It loads the seven inputs whole, computes one pure function of
  them, and stores that function's value over the whole output block. So after the body the seven input
  buffers hold what they held, and the output buffer holds the value of that function at the seven
  blocks, whatever it held before. An input buffer holds its window's block at every point, whether or
  not the pipeline moved data into it there: when nothing is moved the block index has not changed.
-/
import proofs.«164264_j18141941858697_2_alg».proof.Proof.Gen.KernelIdeal.Launch
import proofs.«164264_j18141941858697_2_alg».proof.Proof.Gen.KernelIdeal.Skeleton
import proofs.«164264_j18141941858697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffer contents when the region is entered: the launch contents after the four host operations
    that precede the region (two slices of the first weight matrix, two reshapes of the biases). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what its one store leaves -/

abbrev rA : Rect S1x128x256 := Rect.unit (s := S1x128x256) ![0, 0, 0] S1x128x256.size inb_S1x128x256_S1x128x256_0_0_0
abbrev rW : Rect S256x128 := Rect.unit (s := S256x128) ![0, 0] S256x128.size inb_S256x128_S256x128_0_0
abbrev rB1 : Rect S1x128 := Rect.unit (s := S1x128) ![0, 0] S1x128.size inb_S1x128_S1x128_0_0
abbrev rW2 : Rect S128x8 := Rect.unit (s := S128x8) ![0, 0] S128x8.size inb_S128x8_S128x8_0_0
abbrev rB2 : Rect S1x8 := Rect.unit (s := S1x8) ![0, 0] S1x8.size inb_S1x8_S1x8_0_0
abbrev rO : Rect S1x128x1024 := Rect.unit (s := S1x128x1024) ![0, 0, 0] S1x128x1024.size inb_S1x128x1024_S1x128x1024_0_0_0

/-- The output block after the body, from the seven input blocks: its one store, of the body's pure function of
    the loads, over the whole block. -/
def outBlk (x0 x1 : Vec F S1x128x256 .f32) (x2 x3 : Vec F S256x128 .f32) (x4 : Vec F S1x128 .f32) (x5 : Vec F S128x8 .f32) (x6 : Vec F S1x8 .f32) :
    Vec F S1x128x1024 .f32 :=
  View.canon [⟨rO, k0_pay1 (k0_pay2 (View.ld x0 rA) (View.ld x1 rA) (View.ld x2 rW) (View.ld x3 rW) (View.ld x4 rB1) (View.ld x5 rW2) (View.ld x6 rB2))⟩]

/-- The store's rectangle is the whole block. -/
theorem coverO (p0 : Vec F S1x128x1024 .f32) (y : S1x128x1024.Idx) :
    ∃ pc ∈ ([⟨rO, p0⟩] : List (View.Piece (Elt F) S1x128x1024 .f32)), y ∈ pc.1.set :=
  View.cover_of_tiled [⟨rO, p0⟩] S1x128x1024.size (by rfl) y

/-! ## The body's triple -/

set_option maxHeartbeats 2000000 in
/-- The body on whole staging memrefs, the inputs' at read contents `x0 … x6` and the output's at anything, runs
    to the continuation holding the inputs' as they were and the output's at `outBlk` of the inputs'. -/
theorem sound_kernel (c : Dev nD) (E : Set ℕ) (i : grid0.Coords)
    (arg3 : Memref sig .tc .vmem S1x128x256 .f32) (harg3 : arg3.IsWhole) (arg4 : Memref sig .tc .vmem S1x128x256 .f32) (harg4 : arg4.IsWhole)
    (arg5 : Memref sig .tc .vmem S256x128 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S128x8 .f32) (harg8 : arg8.IsWhole)
    (arg9 : Memref sig .tc .vmem S1x8 .f32) (harg9 : arg9.IsWhole) (arg10 : Memref sig .tc .vmem S1x128x1024 .f32) (harg10 : arg10.IsWhole)
    (x0 x1 : Vec F S1x128x256 .f32) (x2 x3 : Vec F S256x128 .f32) (x4 : Vec F S1x128 .f32) (x5 : Vec F S128x8 .f32) (x6 : Vec F S1x8 .f32)
    (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (outBlk x0 x1 x2 x3 x4 x5 x6)) -∗ K ⟨⟩))
      ⊢ wp frame (wpE (defs₀ (F := F)) Variants.none c none) E
          (cc0__fused_kernel i arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.KernelIdeal.Body

end
-- ==== Proof.DatIdeal.lean ====
/-
  The pipeline's proof data and the body obligation at every grid point.

  The slot array is read through two windows (rows of the i-tile and rows of the j-tile), so neither window
  can hold it alone: each holds half of the full share, which suffices to read. Every other array belongs
  to one window, at the full share. After the body at a point every input buffer holds its window's block
  there and the output buffer holds the body's function of the seven input blocks.
-/
import proofs.«164264_j18141941858697_2_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window holds: the two windows on the slot array a half each. -/
def winShare : Fin cfg0.W → PosShare TreeShare
  | ⟨0, _⟩ => fullShare.left
  | ⟨1, _⟩ => fullShare.right
  | _ => fullShare

/-- The proof data on core `c`: the arrays as the region finds them; after the body at point `t` each input
    buffer at its block and the output buffer at the body's function of the input blocks; the invariant is the
    scoped buffers that no window stages (there are none), untouched; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.scopedRest spec0 c
  q := winShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlk (iblk m c 0 t) (iblk m c 1 t) (iblk m c 2 t) (iblk m c 3 t) (iblk m c 4 t) (iblk m c 5 t) (iblk m c 6 t) := by dsimp only [dats]

/-! ## Each input buffer holds its block at every point, moved there or not -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant
    and the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.RunIdeal.lean ====
/-
  The launch: every weakly fair execution of the program terminates, and what the final memory holds.

  The program is four host operations (two slices of the first weight matrix, two reshapes of the biases),
  the kernel region over a grid of 32 points, and one host reshape of the region's result. The region holds the
  slot array through two windows, half a share each: the buffer, whole at the full share when the region is
  entered, is split along the share into the two halves, which is enough to read it and keeps it unchanged; the
  two halves come back at the region's exit. The reshape after the region reads the result array and writes its
  own buffer, touching nothing else.
-/
import proofs.«164264_j18141941858697_2_alg».proof.Proof.DatIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape that follows it, at the contents after the four host
    operations that precede it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays, window by window -/

/-- A buffer of the core, whole, at a share. -/
abbrev pt (c : Dev nD) (b : Ref sig .tc) (q : PosShare TreeShare) (f : Buf (Elt F) ((c : Thread nD τ).loc b)) : sProp 𝕄 :=
  ((c : Thread nD τ).loc b) ↦{q} f

theorem full_halves : (fullShare : PosShare TreeShare) ∈ fullShare.left ·? fullShare.right := by
  rw [PosShare.left_op_right]; exact Part.mem_some _

theorem share_0 (c : Dev nD) : (dats m 0 c).share 0 = fullShare.left := by unfold Dat.share; rfl
theorem share_1 (c : Dev nD) : (dats m 0 c).share 1 = fullShare.right := by unfold Dat.share; rfl
theorem share_2 (c : Dev nD) : (dats m 0 c).share 2 = fullShare := by unfold Dat.share; rfl
theorem share_3 (c : Dev nD) : (dats m 0 c).share 3 = fullShare := by unfold Dat.share; rfl
theorem share_4 (c : Dev nD) : (dats m 0 c).share 4 = fullShare := by unfold Dat.share; rfl
theorem share_5 (c : Dev nD) : (dats m 0 c).share 5 = fullShare := by unfold Dat.share; rfl
theorem share_6 (c : Dev nD) : (dats m 0 c).share 6 = fullShare := by unfold Dat.share; rfl
theorem share_7 (c : Dev nD) : (dats m 0 c).share 7 = fullShare := by unfold Dat.share; rfl

/-- The proof data's arrays at contents `Fa`, one by one: the slot array twice, a half each. -/
theorem arrays_chain (c : Dev nD) (Fa : (w : Fin cfg0.W) → Buf (Elt F) ((cfg0.win w).arr.view.loc (c : Thread nD τ))) :
    ((dats m 0 c).arrays Fa : sProp 𝕄)
      = iprop(pt c main_arg0 fullShare.left (Fa 0) ∗ pt c main_arg0 fullShare.right (Fa 1) ∗ pt c main_v0 fullShare (Fa 2)
          ∗ pt c main_v1 fullShare (Fa 3) ∗ pt c main_v2 fullShare (Fa 4) ∗ pt c main_arg3 fullShare (Fa 5)
          ∗ pt c main_v3 fullShare (Fa 6) ∗ pt c main_v4 fullShare (Fa 7)) := by
  unfold Dat.arrays
  rw [show (bigSep Finset.univ fun w : Fin cfg0.W => (cfg0.win w).arr.view.loc (c : Thread nD τ) ↦[(cfg0.win w).arr.view.set]{(dats m 0 c).share w} Fa w : sProp 𝕄)
      = bigSep Finset.univ fun w : Fin cfg0.W => (((c : Thread nD τ).loc (Pipeline.arrRef spec0 w)) ↦{(dats m 0 c).share w} Fa w : sProp 𝕄)
    from bigSep_congr fun w _ => by rw [(arr_whole0 w).set_eq_univ]]
  rw [bigSep_W0, share_0, share_1, share_2, share_3, share_4, share_5, share_6, share_7]

/-- The distinct buffers behind the windows, whole at the full share, make the proof data's arrays at entry: the
    slot array's buffer splits along the share. -/
theorem hsplit (c : Dev nD) : (Pipeline.arrBufs spec0 c (V m c) : sProp 𝕄) ⊢ (dats m 0 c).arrays ((dats m 0 c).arrAt · 0) := by
  rw [arrays_chain]
  unfold Pipeline.arrBufs
  rw [bigSep_eq_bigSepL_of_eq [main_arg0, main_v0, main_v1, main_v2, main_arg3, main_v3, main_v4] (by decide) (by decide)]
  show iprop(pt c main_arg0 fullShare (V m c main_arg0) ∗ pt c main_v0 fullShare (V m c main_v0) ∗ pt c main_v1 fullShare (V m c main_v1)
      ∗ pt c main_v2 fullShare (V m c main_v2) ∗ pt c main_arg3 fullShare (V m c main_arg3) ∗ pt c main_v3 fullShare (V m c main_v3)
      ∗ pt c main_v4 fullShare (V m c main_v4)) ⊢ _
  iintro ⟨H0, H2, H3, H4, H5, H6, H7⟩
  ihave H01 := (pointsTo_share full_halves).1 $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-! ## No host operation before the region writes an argument array -/

theorem V_arg (c : Dev nD) (b : Ref sig .tc) (hb : ∀ op ∈ (hostOps0 : List (HloOp τ sig (Elt F))), Proc.devRef .tc b ∉ op.writes) :
    V m c b = m ((c : Thread nD τ).loc b) := by
  show StableHlo.after (List.flatten [hostOps0]) (fun b => m (c, b)) (Proc.devRef .tc b) = _
  rw [List.flatten_cons, List.flatten_nil, List.append_nil]
  exact StableHlo.after_of_forall_not_mem _ _ hb

theorem hostOps0_keeps (b : Ref sig .tc) (h0 : b ≠ main_v0) (h1 : b ≠ main_v1) (h2 : b ≠ main_v2) (h3 : b ≠ main_v3) :
    ∀ op ∈ (hostOps0 : List (HloOp τ sig (Elt F))), Proc.devRef .tc b ∉ op.writes := by
  intro op hop
  simp only [hostOps0, List.mem_cons, List.mem_nil_iff, or_false] at hop
  rcases hop with rfl | rfl | rfl | rfl
  all_goals simp only [StableHlo.unary_writes, StableHlo.reshape_writes, Finset.mem_singleton]
  · exact StableHlo.devRef_ne_of_ne h0
  · exact StableHlo.devRef_ne_of_ne h1
  · exact StableHlo.devRef_ne_of_ne h2
  · exact StableHlo.devRef_ne_of_ne h3

theorem V_main_arg0 (c : Dev nD) : V m c main_arg0 = m ((c : Thread nD τ).loc main_arg0) :=
  V_arg m c main_arg0 (hostOps0_keeps main_arg0 (by decide) (by decide) (by decide) (by decide))
theorem V_main_arg1 (c : Dev nD) : V m c main_arg1 = m ((c : Thread nD τ).loc main_arg1) :=
  V_arg m c main_arg1 (hostOps0_keeps main_arg1 (by decide) (by decide) (by decide) (by decide))
theorem V_main_arg2 (c : Dev nD) : V m c main_arg2 = m ((c : Thread nD τ).loc main_arg2) :=
  V_arg m c main_arg2 (hostOps0_keeps main_arg2 (by decide) (by decide) (by decide) (by decide))
theorem V_main_arg3 (c : Dev nD) : V m c main_arg3 = m ((c : Thread nD τ).loc main_arg3) :=
  V_arg m c main_arg3 (hostOps0_keeps main_arg3 (by decide) (by decide) (by decide) (by decide))
theorem V_main_arg4 (c : Dev nD) : V m c main_arg4 = m ((c : Thread nD τ).loc main_arg4) :=
  V_arg m c main_arg4 (hostOps0_keeps main_arg4 (by decide) (by decide) (by decide) (by decide))

/-! ## The reshape after the region -/

/-- The core's buffers when the region is left: the result array at what the write-backs made it, every other
    buffer at its entry contents. -/
def Vexit (c : Dev nD) : Valuation τ sig (Elt F) :=
  Function.update (V0 m c) (Proc.devRef .tc main_v4) ((dats m 0 c).arrAt 7 cfg0.N)
/-- And after the reshape of the result array. -/
def Vend (c : Dev nD) : Valuation τ sig (Elt F) := StableHlo.after hostOps1 (Vexit m c)

/-- The two buffers the reshape touches. -/
def tailBufs : Finset (DevRef τ sig) := {Proc.devRef .tc main_v4, Proc.devRef .tc main_v5}

theorem tailBufs_eq (c : Dev nD) (W : Valuation τ sig (Elt F)) : (StableHlo.held (c : Thread nD τ) tailBufs W : sProp 𝕄)
    = iprop(pt c main_v4 fullShare (W (Proc.devRef .tc main_v4)) ∗ pt c main_v5 fullShare (W (Proc.devRef .tc main_v5))) := by
  unfold StableHlo.held
  rw [bigSep_eq_bigSepL_of_eq [Proc.devRef .tc main_v4, Proc.devRef .tc main_v5] (by decide) (by decide)]
  rfl

theorem hostOps1_in : ∀ ops ∈ ([hostOps1] : List (List (HloOp τ sig (Elt F)))), ∀ op ∈ ops, op.bufs ⊆ tailBufs := by
  intro ops hops op hop
  simp only [List.mem_cons, List.mem_nil_iff, or_false] at hops
  subst hops
  simp only [hostOps1, List.mem_cons, List.mem_nil_iff, or_false] at hop
  subst hop
  show ({Proc.devRef .tc main_v4, Proc.devRef .tc main_v5} : Finset (DevRef τ sig)) ⊆ tailBufs
  decide

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem hostOps1_keeps (b : Ref sig .tc) (h5 : b ≠ main_v5) :
    ∀ op ∈ (hostOps1 : List (HloOp τ sig (Elt F))), Proc.devRef .tc b ∉ op.writes := by
  intro op hop
  simp only [hostOps1, List.mem_cons, List.mem_nil_iff, or_false] at hop
  subst hop
  simp only [StableHlo.reshape_writes, Finset.mem_singleton]
  exact StableHlo.devRef_ne_of_ne h5

/-- The reshape leaves the result array as the region left it, -/
theorem Vend_v4 (c : Dev nD) : Vend m c (Proc.devRef .tc main_v4) = (dats m 0 c).arrAt 7 cfg0.N := by
  unfold Vend
  rw [StableHlo.after_of_forall_not_mem _ _ (hostOps1_keeps main_v4 (by decide))]
  unfold Vexit
  exact Function.update_self ..

/-- and every buffer other than its own result and the result array as the region found it. -/
theorem Vend_other (c : Dev nD) (b : Ref sig .tc) (h4 : b ≠ main_v4) (h5 : b ≠ main_v5) : Vend m c (Proc.devRef .tc b) = V m c b := by
  unfold Vend
  rw [StableHlo.after_of_forall_not_mem _ _ (hostOps1_keeps b h5)]
  unfold Vexit
  exact Function.update_of_ne (StableHlo.devRef_ne_of_ne h4) ..

/-- The lines after the region: from the arrays as the region left them and the bypassing buffers as it found them,
    the reshape runs and hands back the arrays unchanged and the bypassing buffers at the contents after it. -/
theorem htail (c : Dev nD) (Q' : PUnit → sProp 𝕄) :
    iprop((iprop((dats m 0 c).arrays ((dats m 0 c).arrAt · cfg0.N)
              ∗ Pipeline.unscopedRest spec0 c (fun b => Vend m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  have hw := Pipeline.wp_seqs_then (Ix := Unit) (Name := ℕ) (U := UR sig nD τ) (Lvl := ℕ) (pcfgs (F := F)) defs₀ Variants.none c tailBufs []
    (K := Q') [hostOps1] hostOps1_in hostOps1_fresh' (Vexit m c)
  rw [tailBufs_eq, tailBufs_eq] at hw
  rw [show StableHlo.after ([hostOps1] : List (List (HloOp τ sig (Elt F)))).flatten (Vexit m c) = Vend m c from by
    unfold Vend; rw [List.flatten_cons, List.flatten_nil, List.append_nil]] at hw
  rw [Vend_v4] at hw
  rw [show Vexit m c (Proc.devRef .tc main_v4) = (dats m 0 c).arrAt 7 cfg0.N from by unfold Vexit; exact Function.update_self ..,
    show Vexit m c (Proc.devRef .tc main_v5) = V m c main_v5 from by unfold Vexit; exact Function.update_of_ne (StableHlo.devRef_ne_of_ne (by decide)) ..] at hw
  rw [arrays_chain, unscopedRest0_eq, unscopedRest0_eq,
    Vend_other m c main_arg1 (by decide) (by decide), Vend_other m c main_arg2 (by decide) (by decide), Vend_other m c main_arg4 (by decide) (by decide)]
  iintro ⟨Hk, Hb, ⟨Ha, Hb', H2, H3, H4, H5, H6, H7⟩, ⟨R1, R2, R4, R5⟩⟩
  simp only [List.map_cons, List.map_nil, List.append_nil] at hw
  iapply hw $$ [Hb H7 R5]
  · isplitl [Hb]; · iexact Hb
    isplitl [H7]; · iexact H7
    iexact R5
  iintro ⟨Hb, H7, R5⟩
  rw [Pipeline.chain_nil, wp_pure]
  imodintro
  iapply Hk
  isplitl [Ha Hb' H2 H3 H4 H5 H6 H7]
  · isplitl [Ha]; · iexact Ha
    isplitl [Hb']; · iexact Hb'
    isplitl [H2]; · iexact H2
    isplitl [H3]; · iexact H3
    isplitl [H4]; · iexact H4
    isplitl [H5]; · iexact H5
    isplitl [H6]; · iexact H6
    iexact H7
  isplitl [R1]; · iexact R1
  isplitl [R2]; · iexact R2
  isplitl [R4]; · iexact R4
  iexact R5

/-! ## The run -/

/-- The core's unscoped buffers that are no window's array. -/
abbrev restSet : Finset (Ref sig .tc) := (Finset.univ.filter fun b : Ref sig .tc => ¬ b.isScoped) \ Finset.univ.image (Pipeline.arrRef spec0)

-- the launch theorem's implicit arguments are found by unifying its conclusion with this one, which takes unfolding
-- plain definitions in a metavariable's type
set_option backward.isDefEq.respectTransparency.types false in
/-- At any float values, from any memory with zero counters: every weakly fair execution of @main on the TensorCores
    terminates, and every final state has the result buffer at the reshape of what the region's write-backs made
    the kernel's result array, and the five argument arrays as launched. -/
theorem run_main : θ_run defs (onTc (τ := τ) (main (F := F))) (s₀ m ρ) (fun r => ∀ c : Dev nD,
      r.2.mem ((c.tc : Thread nD τ).loc main_v5) = Vend m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m) (hpf := fun _ k => k.elim0)
    (X := fun _ => iprop(emp)) (Y := fun _ => iprop(emp))
    (Z := fun c => Pipeline.unscopedRest spec0 c (V m c))
    (Z' := fun c => Pipeline.unscopedRest spec0 c (fun b => Vend m c (Proc.devRef .tc b)))
    (hX := fun c => by
      rw [Pipeline.unscopedRestP_none]
      iintro H
      isplitr; · iempintro
      iexact H)
    (hin := fun c => by
      rw [show (dats m 0 c).Φ 0 = Pipeline.scopedRest spec0 c from rfl]
      iintro ⟨-, -, HR⟩; iexact HR)
    (hout := fun c => by
      rw [show (dats m 0 c).Φ (Fin.last _) = Pipeline.scopedRest spec0 c from rfl]
      iintro HR
      isplitr; · iempintro
      iexact HR)
    (htail := htail m)
    (QY := fun c s => ∀ b ∈ restSet, s.mem ((c.tc : Thread nD τ).loc b) = Vend m c (Proc.devRef .tc b))
    (hY := fun c s' => by
      iintro ⟨-, HU, HSI⟩
      unfold Pipeline.unscopedRest
      imodintro
      iapply (pointsTo_read_all restSet (fun b => (c.tc : Thread nD τ).loc b) (fun b => Vend m c (Proc.devRef .tc b)) s')
      isplitl [HU] <;> iassumption)
    (hQ := fun s h c => by
      obtain ⟨harrs, -, hrest⟩ := h c
      refine ⟨hrest main_v5 (by decide), ?_, ?_, ?_, ?_, ?_⟩
      · exact (harrs 0).trans (((dats m 0 c).arrAt_in 0 rfl _).trans ((A_eq m c 0).trans (V_main_arg0 m c)))
      · exact (hrest main_arg1 (by decide)).trans ((Vend_other m c main_arg1 (by decide) (by decide)).trans (V_main_arg1 m c))
      · exact (hrest main_arg2 (by decide)).trans ((Vend_other m c main_arg2 (by decide) (by decide)).trans (V_main_arg2 m c))
      · exact (harrs 5).trans (((dats m 0 c).arrAt_in 5 rfl _).trans ((A_eq m c 5).trans (V_main_arg3 m c)))
      · exact (hrest main_arg4 (by decide)).trans ((Vend_other m c main_arg4 (by decide) (by decide)).trans (V_main_arg4 m c)))

/-- The frame: the program runs to the end, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Body

end
-- ==== Proof.Spec.lean ====
/-
  The pair-MLP relation predictor as ONE function of its five argument arrays, index by index.

  For a batch of slot sets  slots : [8, 256, 256]  (batch b, slot n, feature d), a first layer
  W1 : [512, 128], b1 : [128]  acting on the concatenation of two slots' features, and a second layer
  W2 : [128, 8], b2 : [8],  the score of relation r between slots i and j of batch b is

     out (b, i, j, r) = logistic ( (∑ h < 128, relu ( (P_i(b,i,h) + b1 h) + P_j(b,j,h) ) * W2 (h, r)) + b2 r )

  where the concatenated product splits along the rows of W1:
     P_i (b, n, h) = ∑ d < 256, slots (b, n, d) * W1 (d, h)          (rows 0 … 255 of W1)
     P_j (b, n, h) = ∑ d < 256, slots (b, n, d) * W1 (256 + d, h)    (rows 256 … 511 of W1)
  and relu x = max x 0.  Everything is over the extended reals; the bias is added to the first
  projection before the second projection is added (any other grouping of the three summands is equal,
  addition of extended reals being commutative and associative).
-/
import Idealize.ShloMosaic.PureOps.Ideal
import Idealize.ShloMosaic.Lib.ValueIdx

noncomputable section

open scoped BigOperators

namespace Cert.PairMlp

open Idealize.ShloMosaic Idealize.ShloMosaic.ValueIdx

/-- Row `d` of the upper half of the first layer's weights (the half that multiplies the first slot). -/
abbrev lo (d : Fin 256) : Fin 512 := ⟨d.val, by have := d.isLt; omega⟩
/-- Row `256 + d` of the first layer's weights: row `d` of the lower half (the half that multiplies the second slot). -/
abbrev hi (d : Fin 256) : Fin 512 := ⟨256 + d.val, by have := d.isLt; omega⟩

/-- The first slot's projection: slot `n` of batch `b` against the upper half of `W1`, hidden unit `h`. -/
def projI (slots : (⟨3, ![8, 256, 256]⟩ : Shape).Idx → EReal) (W1 : (⟨2, ![512, 128]⟩ : Shape).Idx → EReal)
    (b : Fin 8) (n : Fin 256) (h : Fin 128) : EReal :=
  ∑ d : Fin 256, slots (ix3 b n d) * W1 (ix2 (lo d) h)

/-- The second slot's projection: slot `n` of batch `b` against the lower half of `W1`, hidden unit `h`. -/
def projJ (slots : (⟨3, ![8, 256, 256]⟩ : Shape).Idx → EReal) (W1 : (⟨2, ![512, 128]⟩ : Shape).Idx → EReal)
    (b : Fin 8) (n : Fin 256) (h : Fin 128) : EReal :=
  ∑ d : Fin 256, slots (ix3 b n d) * W1 (ix2 (hi d) h)

/-- Hidden unit `h` of the pair `(i, j)` of batch `b`: the rectified sum of the two projections and the bias. -/
def hidden (slots : (⟨3, ![8, 256, 256]⟩ : Shape).Idx → EReal) (W1 : (⟨2, ![512, 128]⟩ : Shape).Idx → EReal)
    (b1 : (⟨1, ![128]⟩ : Shape).Idx → EReal) (b : Fin 8) (i j : Fin 256) (h : Fin 128) : EReal :=
  max ((projI slots W1 b i h + b1 (ix1 h)) + projJ slots W1 b j h) 0

/-- The relation scores: at `(b, i, j, r)` the logistic of the second layer applied to the pair's hidden units. -/
def out (slots : (⟨3, ![8, 256, 256]⟩ : Shape).Idx → EReal) (W1 : (⟨2, ![512, 128]⟩ : Shape).Idx → EReal)
    (b1 : (⟨1, ![128]⟩ : Shape).Idx → EReal) (W2 : (⟨2, ![128, 8]⟩ : Shape).Idx → EReal)
    (b2 : (⟨1, ![8]⟩ : Shape).Idx → EReal) : (⟨4, ![8, 256, 256, 8]⟩ : Shape).Idx → EReal :=
  fun i => Ideal.logistic
    ((∑ h : Fin 128, hidden slots W1 b1 (i 0) (i 1) (i 2) h * W2 (ix2 h (i 3))) + b2 (ix1 (i 3)))

/-- The scores at explicit coordinates, with every definition opened: the formula of this file's header. -/
theorem out_ix4 (slots : (⟨3, ![8, 256, 256]⟩ : Shape).Idx → EReal) (W1 : (⟨2, ![512, 128]⟩ : Shape).Idx → EReal)
    (b1 : (⟨1, ![128]⟩ : Shape).Idx → EReal) (W2 : (⟨2, ![128, 8]⟩ : Shape).Idx → EReal)
    (b2 : (⟨1, ![8]⟩ : Shape).Idx → EReal) (b : Fin 8) (i j : Fin 256) (r : Fin 8) :
    out slots W1 b1 W2 b2 (ix4 b i j r) =
      Ideal.logistic ((∑ h : Fin 128,
        max (((∑ d : Fin 256, slots (ix3 b i d) * W1 (ix2 (lo d) h)) + b1 (ix1 h))
              + (∑ d : Fin 256, slots (ix3 b j d) * W1 (ix2 (hi d) h))) 0 * W2 (ix2 h r)) + b2 (ix1 r)) := rfl

end Cert.PairMlp

end
-- ==== Proof.LaneDense.lean ====
/-
  The kernel's own result array, before the final reshape: 8 batches of 256 rows of 2048 lanes, lane 8·j + r of
  row (b, i) holding the relation score of the pair (i, j) for relation r.
-/
import proofs.«164264_j18141941858697_2_alg».proof.Proof.Spec

noncomputable section

namespace Cert.PairMlp

open Idealize.ShloMosaic Idealize.ShloMosaic.ValueIdx

/-- The lane-dense arrangement of the result: entry (b, i, l) is the result's entry (b, i, l / 8, l % 8). -/
def laneDense (slots : (⟨3, ![8, 256, 256]⟩ : Shape).Idx → EReal) (W1 : (⟨2, ![512, 128]⟩ : Shape).Idx → EReal)
    (b1 : (⟨1, ![128]⟩ : Shape).Idx → EReal) (W2 : (⟨2, ![128, 8]⟩ : Shape).Idx → EReal) (b2 : (⟨1, ![8]⟩ : Shape).Idx → EReal) :
    (⟨3, ![8, 256, 2048]⟩ : Shape).Idx → EReal :=
  fun i => out slots W1 b1 W2 b2
    (ix4 (i 0) (i 1) (⟨(i 2).val / 8, by have h : (i 2).val < 2048 := (i 2).isLt; omega⟩ : Fin 256)
      (⟨(i 2).val % 8, Nat.mod_lt _ (by decide)⟩ : Fin 8))

end Cert.PairMlp

end
-- ==== Proof.LibSplitLast.lean ====
/-
  A shape cast that SPLITS THE LAST AXIS of a rank-3 array, read at an index.

  Row-major order numbers the entries of an `[a, b, n]` array by `(p * b + q) * n + l` and those of an `[a, b, c, d]`
  array by `((p * b + q) * c + u) * d + v`.  When `n = c * d` the two numberings agree exactly when `l = u * d + v`:
  a shape cast keeps every entry's row-major position, so entry `(p, q, u, v)` of the cast array is entry
  `(p, q, u * d + v)` of the operand.
-/
import Idealize.ShloMosaic.Lib.Pipeline.Value
import Idealize.ShloMosaic.Lib.ValueIdx

namespace Idealize.ShloMosaic.ValueIdx

open Idealize.ShloMosaic

/-- An `[a, b, n]` array with `n = c * d`, cast to `[a, b, c, d]`, reads at `(p, q, u, v)` the operand at `(p, q, l)`
    for the lane `l = u * d + v`: the two indices have one row-major position. -/
theorem shapeCast_abn_abcd_apply {α : Type} {a b c d n : ℕ} (x : (⟨3, ![a, b, n]⟩ : Shape).Idx → α)
    (h : (⟨3, ![a, b, n]⟩ : Shape).ShapeCasts ⟨4, ![a, b, c, d]⟩) (hn : n = c * d)
    (p : Fin a) (q : Fin b) (u : Fin c) (v : Fin d) (l : Fin n) (hl : l.val = u.val * d + v.val) :
    shapeCast ⟨4, ![a, b, c, d]⟩ x h (ix4 p q u v) = x (ix3 p q l) :=
  shapeCast_apply x h _ _ (by
    rw [Shape.rowMajor_val_three, Shape.rowMajor_val_four]
    show (p.val * b + q.val) * n + l.val = ((p.val * b + q.val) * c + u.val) * d + v.val
    rw [hl, hn]
    ring)

end Idealize.ShloMosaic.ValueIdx
-- ==== Proof.TailReshape.lean ====
/-
  The final reshape of the kernel program: the lane-dense result `[8, 256, 2048]`, whose lane `8 * j + r` of row
  `(b, i)` holds the relation score of the pair `(i, j)` for relation `r`, cast to `[8, 256, 256, 8]` IS the array
  of relation scores.  A shape cast keeps row-major positions, entry `(b, i, j, r)` of the result sits at the position
  of lane `j * 8 + r`, and that lane's quotient and remainder by 8 are `j` and `r`.
-/
import proofs.«164264_j18141941858697_2_alg».proof.Proof.LaneDense
import proofs.«164264_j18141941858697_2_alg».proof.Proof.LibSplitLast

noncomputable section

namespace Cert.PairMlp

open Idealize.ShloMosaic Idealize.ShloMosaic.ValueIdx

/-- The lane-dense arrangement, reshaped to `[8, 256, 256, 8]`, is the array of relation scores. -/
theorem shapeCast_laneDense (slots : (⟨3, ![8, 256, 256]⟩ : Shape).Idx → EReal) (W1 : (⟨2, ![512, 128]⟩ : Shape).Idx → EReal)
    (b1 : (⟨1, ![128]⟩ : Shape).Idx → EReal) (W2 : (⟨2, ![128, 8]⟩ : Shape).Idx → EReal) (b2 : (⟨1, ![8]⟩ : Shape).Idx → EReal)
    (h : (⟨3, ![8, 256, 2048]⟩ : Shape).ShapeCasts ⟨4, ![8, 256, 256, 8]⟩) :
    shapeCast (⟨4, ![8, 256, 256, 8]⟩ : Shape) (laneDense slots W1 b1 W2 b2) h = out slots W1 b1 W2 b2 := by
  funext i
  obtain ⟨p, q, u, v, rfl⟩ : ∃ (p : Fin 8) (q : Fin 256) (u : Fin 256) (v : Fin 8), i = ix4 p q u v :=
    ⟨i 0, i 1, i 2, i 3, eq_ix4 i⟩
  have hu : u.val < 256 := u.isLt
  have hv : v.val < 8 := v.isLt
  rw [shapeCast_abn_abcd_apply (laneDense slots W1 b1 W2 b2) h rfl p q u v
    (⟨u.val * 8 + v.val, by omega⟩ : Fin 2048) rfl]
  unfold laneDense
  refine congrArg (out slots W1 b1 W2 b2) (funext fun a => ?_)
  match a with
  | ⟨0, _⟩ => rfl
  | ⟨1, _⟩ => rfl
  | ⟨2, _⟩ => exact Fin.ext (by show (u.val * 8 + v.val) / 8 = u.val; omega)
  | ⟨3, _⟩ => exact Fin.ext (by show (u.val * 8 + v.val) % 8 = v.val; omega)

end Cert.PairMlp

end
-- ==== Proof.ValueIdeal.lean ====
/-
  What the kernel program's result buffer holds at the end, at the ideal instance.

  The last host operation reshapes the kernel's lane-dense result array of 8 x 256 x 2048 entries to the 8 x 256 x 256 x 8
  result. The region's write-backs make the lane-dense array the specification's entries arranged eight relations to
  a pair along the lanes; the reshape then yields the specification itself.
-/
import proofs.«164264_j18141941858697_2_alg».proof.Proof.RunIdeal
import proofs.«164264_j18141941858697_2_alg».proof.Proof.TailReshape

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The result buffer at the end is the reshape of the kernel's result array as the region left it. -/
theorem Vend_v5 (c : Dev nD) : Vend m c (Proc.devRef .tc main_v5)
    = shapeCast S8x256x256x8 ((dats m 0 c).arrAt 7 cfg0.N) shapeCasts_S8x256x2048_S8x256x256x8 := by
  unfold Vend
  show StableHlo.after [StableHlo.reshape main_v4 main_v5 rfl shapeCasts_S8x256x2048_S8x256x256x8] (Vexit m c) (Proc.devRef .tc main_v5) = _
  rw [StableHlo.after_cons, StableHlo.after_nil, StableHlo.reshape_result']
  unfold Vexit
  rw [Function.update_self]
  rfl

end Cert.KernelIdeal.Body

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibRank3Layouts.lean ====
/-
  Layout operations on rank-3 arrays read at an index written by coordinates: the forms a pairwise sum
  `x[:, None, :] + y[None, :, :]` and a last-axis reduction kept as a unit axis (`keepdims`) are built from.
  Each is the parent lemma of Lib/Pipeline/Value.lean (`shapeCast_apply`: equal row-major positions;
  `broadcastTo_apply`: the operand's coordinate is the result's, or 0 on a unit axis) with both indices written
  `ix2 …` / `ix3 …`, general in the extents.
  • `shapeCast_ac_a1c_apply`   [a, c]    → [a, 1, c]  : (i, u, j) reads (i, j)
  • `shapeCast_ab_ab1_apply`   [a, b]    → [a, b, 1]  : (i, j, u) reads (i, j)
  • `broadcastTo_a1c_abc_apply` [a, 1, c] → [a, b, c]  : (i, q, j) reads (i, 0, j)
  • `broadcastTo_1bc_abc_apply` [1, b, c] → [a, b, c]  : (p, i, j) reads (0, i, j)
  • `broadcastTo_ab1_abc_apply` [a, b, 1] → [a, b, c]  : (i, j, k) reads (i, j, 0)
-/
import Idealize.ShloMosaic.Lib.ValueLayout

namespace Cert.LibRank3

open Idealize.ShloMosaic Idealize.ShloMosaic.ValueIdx

variable {α : Type}

/-- An `[a, c]` array cast to `[a, 1, c]` reads, at `(i, u, j)`, the operand at `(i, j)`: the unit axis adds nothing
    to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, q, j)`, the operand's one middle entry `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (j : Fin c) :
    broadcastTo ⟨3, ![a, b, c]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand's one leading entry `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, b, 1]` array broadcast to `[a, b, c]` reads, at `(i, j, k)`, the operand's one trailing entry `(i, j, 0)`:
    a kept reduction spread back over the reduced axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibRank3
-- ==== Proof.LibFlatten.lean ====
/-
  Flattening shape casts read at an index written by coordinates: the two reshapes that merge adjacent axes of a
  row-major array, general in the extents.
  • `shapeCast_abc_nc_apply`  [a, b, c] → [n, c] with n = a·b : row i·b + j, column k reads (i, j, k)
  • `shapeCast_nc_ad_apply`   [n, c] → [a, d] with n = a·b, d = b·c : row p, lane q·c + r reads row p·b + q, column r
  Each is the parent lemma of Lib/Pipeline/Value.lean (`shapeCast_apply`: a shape cast reads the operand at the index
  with the same row-major position) with both indices written `ix2 …` / `ix3 …`; the row-major positions agree by the
  distributive law of the naturals.
-/
import Idealize.ShloMosaic.Lib.ValueLayout

namespace Cert.LibFlatten

open Idealize.ShloMosaic Idealize.ShloMosaic.ValueIdx

variable {α : Type}

/-- An `[a, b, c]` array cast to `[n, c]` (the two leading axes merged, so n = a·b) reads, at row `m = i·b + j` and
    column `k`, the operand at `(i, j, k)`: both have row-major position (i·b + j)·c + k. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (m : Fin n)
    (hm : m.val = i.val * b + j.val) :
    shapeCast ⟨2, ![n, c]⟩ x h (ix2 m k) = x (ix3 i j k) :=
  shapeCast_apply x h _ _ (by
    rw [Shape.rowMajor_val_three, Shape.rowMajor_val_two]
    show (i.val * b + j.val) * c + k.val = m.val * c + k.val
    rw [hm])

/-- An `[n, c]` array cast to `[a, d]` with `d = b·c` (each group of `b` consecutive rows laid side by side in one row)
    reads, at row `p` and lane `l = q·c + r`, the operand at row `m = p·b + q` and column `r`: both have row-major
    position p·b·c + q·c + r. -/
theorem shapeCast_nc_ad_apply {n c a d : ℕ} (b : ℕ) (x : (⟨2, ![n, c]⟩ : Shape).Idx → α)
    (h : (⟨2, ![n, c]⟩ : Shape).ShapeCasts ⟨2, ![a, d]⟩) (m : Fin n) (r : Fin c) (p : Fin a) (l : Fin d) (q : ℕ)
    (hd : d = b * c) (hm : m.val = p.val * b + q) (hl : l.val = q * c + r.val) :
    shapeCast ⟨2, ![a, d]⟩ x h (ix2 p l) = x (ix2 m r) :=
  shapeCast_apply x h _ _ (by
    rw [Shape.rowMajor_val_two, Shape.rowMajor_val_two]
    show m.val * c + r.val = p.val * d + l.val
    rw [hm, hl, hd, Nat.add_mul, Nat.mul_assoc, Nat.add_assoc])

end Cert.LibFlatten
-- ==== Proof.HiddenLayer.lean ====
/-
  The hidden layer of the pair network, read entry by entry over the extended reals.

  A block of 128 rows of the input, x : [1, 128, 256], is projected by a weight matrix w : [256, 128]: entry (p, h) of
  the projection is the sum over d < 256 of x(0, p, d) · w(d, h) (the matrix unit starts from a zero accumulator, and
  rounding the operands to a narrower format is the identity here). The row projection also receives the bias b(0, h).
  The hidden activation of the pair (p, q) at unit h is max(A(p, h) + B(q, h), 0): A is spread along a new middle axis,
  B along a new leading axis, the two are added, clipped below at zero, and the three axes (p, q, h) are flattened to
  rows p·128 + q and columns h.
-/
import proofs.«164264_j18141941858697_2_alg».proof.Proof.Gen.KernelIdeal.Skeleton
import proofs.«164264_j18141941858697_2_alg».proof.Proof.LibPlainDot
import proofs.«164264_j18141941858697_2_alg».proof.Proof.LibRank3Layouts
import proofs.«164264_j18141941858697_2_alg».proof.Proof.LibFlatten
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.PairMlp

open Idealize.ShloMosaic Idealize.ShloMosaic.ValueIdx Cert.KernelIdeal Cert.KernelIdeal.Gen

/-- Entry (p, h) of a 128-row block times a [256, 128] weight matrix: the sum over d of x(0, p, d) · w(d, h). -/
theorem proj_apply (x : Vec Ideal S1x128x256 .f32) (w : Vec Ideal S256x128 .f32) (p h : Fin 128) :
    matmul (F := Ideal) dot_S128x256_S256x128_S128x128_1_0_0_1_n_n none
        (truncf .bf16 (shapeCast S128x256 x shapeCasts_S1x128x256_S128x256) bitsLt_bf16_f32)
        (truncf .bf16 (shapeCast S256x128 w shapeCasts_S256x128_S256x128) bitsLt_bf16_f32)
        (constant (F := Ideal) S128x128 .f32 0x00000000#32) (ix2 p h)
      = ∑ d : Fin 256, x (ix3 0 p d) * w (ix2 d h) := by
  refine (Cert.PlainDot.matmul_zero_apply dot_S128x256_S256x128_S128x128_1_0_0_1_n_n rfl _ _ p h).trans ?_
  refine Finset.sum_congr rfl fun d _ => ?_
  refine congrArg₂ (· * ·) ?_ ?_
  · exact shapeCast_1ab_ab_apply x shapeCasts_S1x128x256_S128x256 p d
  · exact congrFun (shapeCast_self w shapeCasts_S256x128_S256x128) (ix2 d h)

/-- The same entry with the bias row added: (∑ d, x(0, p, d) · w(d, h)) + b(0, h). -/
theorem proj_bias_apply (x : Vec Ideal S1x128x256 .f32) (w : Vec Ideal S256x128 .f32) (b : Vec Ideal S1x128 .f32)
    (p h : Fin 128) :
    addf (F := Ideal)
        (matmul (F := Ideal) dot_S128x256_S256x128_S128x128_1_0_0_1_n_n none
          (truncf .bf16 (shapeCast S128x256 x shapeCasts_S1x128x256_S128x256) bitsLt_bf16_f32)
          (truncf .bf16 (shapeCast S256x128 w shapeCasts_S256x128_S256x128) bitsLt_bf16_f32)
          (constant (F := Ideal) S128x128 .f32 0x00000000#32))
        (broadcastTo S128x128 (shapeCast S1x128 b shapeCasts_S1x128_S1x128) broadcasts_S1x128_S128x128) (ix2 p h)
      = (∑ d : Fin 256, x (ix3 0 p d) * w (ix2 d h)) + b (ix2 0 h) := by
  refine congrArg₂ (· + ·) (proj_apply x w p h) ?_
  refine (broadcastTo_1b_ab_apply _ broadcasts_S1x128_S128x128 p h).trans ?_
  exact congrFun (shapeCast_self b shapeCasts_S1x128_S1x128) (ix2 0 h)

/-- The hidden activation of the pair (p, q) at unit h, at row m = p·128 + q of the flattened [16384, 128] array:
    max(A(p, h) + B(q, h), 0). -/
theorem hidden_apply (A B : FVec Ideal S128x128 .f32) (p q h : Fin 128) (m : Fin 16384)
    (hm : m.val = p.val * 128 + q.val) :
    shapeCast S16384x128
        (maximumf (F := Ideal)
          (addf (F := Ideal)
            (broadcastTo S128x128x128
              (shapeCast S128x1x128 (truncf .bf16 A bitsLt_bf16_f32) shapeCasts_S128x128_S128x1x128)
              broadcasts_S128x1x128_S128x128x128)
            (broadcastTo S128x128x128
              (shapeCast S1x128x128 (truncf .bf16 B bitsLt_bf16_f32) shapeCasts_S128x128_S1x128x128)
              broadcasts_S1x128x128_S128x128x128))
          (broadcast S128x128x128 (Scalar.ofBits (F := Ideal) .bf16 0x0000#16)))
        shapeCasts_S128x128x128_S16384x128 (ix2 m h)
      = max (A (ix2 p h) + B (ix2 q h)) 0 := by
  refine (Cert.LibFlatten.shapeCast_abc_nc_apply _ shapeCasts_S128x128x128_S16384x128 p q h m hm).trans ?_
  refine congrArg₂ max (congrArg₂ (· + ·) ?_ ?_) Ideal.ofBits_zero_bf16
  · refine (Cert.LibRank3.broadcastTo_a1c_abc_apply _ broadcasts_S128x1x128_S128x128x128 p q h).trans ?_
    exact Cert.LibRank3.shapeCast_ac_a1c_apply _ shapeCasts_S128x128_S128x1x128 p 0 h
  · refine (Cert.LibRank3.broadcastTo_1bc_abc_apply _ broadcasts_S1x128x128_S128x128x128 p q h).trans ?_
    exact shapeCast_ab_1ab_apply _ shapeCasts_S128x128_S1x128x128 0 q h

end Cert.PairMlp

end
-- ==== Proof.Payload.lean ====
/-
  The body of the pair network read at an output index, over the extended reals.

  The output block is [1, 128, 1024]: row p is the p-th row of the first input block, and lane q·8 + r of that row is
  output unit r of the pair (p, q), q being a row of the second input block. The output layer multiplies the flattened
  hidden activations ([16384, 128], row p·128 + q) by the second weight matrix [128, 8], adds the second bias, applies
  the logistic function, and lays each group of 128 consecutive rows side by side ([16384, 8] → [128, 1024], a
  row-major reshape); a unit leading axis is then added. Hence

    out(0, p, q·8 + r) = logistic( (∑ h, max( ((∑ d, x(0,p,d)·w₁(d,h)) + b₁(0,h)) + (∑ d, y(0,q,d)·w₂(d,h)), 0 ) · w(h,r)) + b(0,r) ).
-/
import proofs.«164264_j18141941858697_2_alg».proof.Proof.HiddenLayer

noncomputable section

namespace Cert.PairMlp

open Idealize.ShloMosaic Idealize.ShloMosaic.ValueIdx Cert.KernelIdeal Cert.KernelIdeal.Gen

/-- The output layer at row p, lane l = q·8 + r of the [128, 1024] result: the logistic of the hidden row
    m = p·128 + q times column r of the weights, plus the bias at r. -/
theorem out_apply (H : FVec Ideal S16384x128 .bf16) (w : Vec Ideal S128x8 .f32) (b : Vec Ideal S1x8 .f32)
    (p q : Fin 128) (r : Fin 8) (m : Fin 16384) (l : Fin 1024)
    (hm : m.val = p.val * 128 + q.val) (hl : l.val = q.val * 8 + r.val) :
    shapeCast S128x1024
        (logistic (F := Ideal)
          (addf (F := Ideal)
            (matmul (F := Ideal) dot_S16384x128_S128x8_S16384x8_1_0_0_1_n_n none H
              (truncf .bf16 w bitsLt_bf16_f32) (constant (F := Ideal) S16384x8 .f32 0x00000000#32))
            (broadcastTo S16384x8 (shapeCast S1x8 b shapeCasts_S1x8_S1x8) broadcasts_S1x8_S16384x8)))
        shapeCasts_S16384x8_S128x1024 (ix2 p l)
      = Ideal.logistic ((∑ h : Fin 128, H (ix2 m h) * w (ix2 h r)) + b (ix2 0 r)) := by
  refine (Cert.LibFlatten.shapeCast_nc_ad_apply 128 _ shapeCasts_S16384x8_S128x1024 m r p l q.val rfl hm hl).trans ?_
  refine congrArg Ideal.logistic (congrArg₂ (· + ·) ?_ ?_)
  · exact Cert.PlainDot.matmul_zero_apply dot_S16384x128_S128x8_S16384x8_1_0_0_1_n_n rfl H _ m r
  · refine (broadcastTo_1b_ab_apply _ broadcasts_S1x8_S16384x8 m r).trans ?_
    exact congrFun (shapeCast_self b shapeCasts_S1x8_S1x8) (ix2 0 r)

/-- THE BODY'S STORED VALUE AT (0, p, l), for a lane l = q·8 + r. -/
theorem pay_apply_of_lane (v0 v3 : Vec Ideal S1x128x256 .f32) (v6 v9 : Vec Ideal S256x128 .f32)
    (v13 : Vec Ideal S1x128 .f32) (v27 : Vec Ideal S128x8 .f32) (v31 : Vec Ideal S1x8 .f32)
    (p q : Fin 128) (r : Fin 8) (l : Fin 1024) (hl : l.val = q.val * 8 + r.val) :
    k0_pay1 (k0_pay2 v0 v3 v6 v9 v13 v27 v31) (ix3 0 p l)
      = Ideal.logistic
          ((∑ h : Fin 128,
              max (((∑ d : Fin 256, v0 (ix3 0 p d) * v6 (ix2 d h)) + v13 (ix2 0 h))
                    + (∑ d : Fin 256, v3 (ix3 0 q d) * v9 (ix2 d h))) 0
                * v27 (ix2 h r))
            + v31 (ix2 0 r)) := by
  have hm : (⟨p.val * 128 + q.val, by have := p.isLt; have := q.isLt; omega⟩ : Fin 16384).val
      = p.val * 128 + q.val := rfl
  unfold k0_pay1 k0_pay2
  refine (shapeCast_ab_1ab_apply _ shapeCasts_S128x1024_S1x128x1024 0 p l).trans ?_
  refine (out_apply _ v27 v31 p q r _ l hm hl).trans ?_
  refine congrArg Ideal.logistic (congrArg (· + v31 (ix2 0 r)) ?_)
  refine Finset.sum_congr rfl fun h _ => ?_
  refine congrArg (· * v27 (ix2 h r)) ?_
  refine (hidden_apply _ _ p q h _ hm).trans ?_
  exact congrArg₂ max (congrArg₂ (· + ·) (proj_bias_apply v0 v6 v13 p h) (proj_apply v3 v9 q h)) rfl

/-- THE BODY'S STORED VALUE AT (0, p, q·8 + r): output unit r of the pair (row p of the first block, row q of the
    second). -/
theorem pay_apply (v0 v3 : Vec Ideal S1x128x256 .f32) (v6 v9 : Vec Ideal S256x128 .f32)
    (v13 : Vec Ideal S1x128 .f32) (v27 : Vec Ideal S128x8 .f32) (v31 : Vec Ideal S1x8 .f32)
    (p q : Fin 128) (r : Fin 8) :
    k0_pay1 (k0_pay2 v0 v3 v6 v9 v13 v27 v31)
        (ix3 0 p (⟨q.val * 8 + r.val, by have := q.isLt; have := r.isLt; omega⟩ : Fin 1024))
      = Ideal.logistic
          ((∑ h : Fin 128,
              max (((∑ d : Fin 256, v0 (ix3 0 p d) * v6 (ix2 d h)) + v13 (ix2 0 h))
                    + (∑ d : Fin 256, v3 (ix3 0 q d) * v9 (ix2 d h))) 0
                * v27 (ix2 h r))
            + v31 (ix2 0 r)) :=
  pay_apply_of_lane v0 v3 v6 v9 v13 v27 v31 p q r _ rfl

end Cert.PairMlp

end
-- ==== Proof.KernelValue.lean ====
/-
  From the blocks to the array: what the kernel region leaves in the result array, over the extended reals.

  The region runs over a grid of 8 × 2 × 2 points (b, i, j). At a point it reads rows 128·i … 128·i+127 and rows
  128·j … 128·j+127 of batch b of the slot array, both halves of the first weight matrix (rows d and 256 + d of the
  [512, 128] matrix, cut out by the host before the region), the two biases (reshaped to one row each by the host) and
  the second weight matrix, all whole; it writes back the block of batch b, rows 128·i …, lanes 1024·j … of the
  [8, 256, 2048] result. Entry (0, p, l) of that block is the body's value at row p of the first block and at the
  pair partner q = l / 8 of the second, output unit r = l % 8; in the array it sits at (b, 128·i + p, 1024·j + l), whose
  lane splits as (1024·j + l) / 8 = 128·j + q and (1024·j + l) % 8 = r. So every point writes the block of ONE function
  of the argument arrays, the lane-dense arrangement of the relation scores; the 32 blocks tile the array (index
  (b, r, l) lies in the block of the point (b, r / 128, l / 1024)), hence the array ends holding that function.
-/
import proofs.«164264_j18141941858697_2_alg».proof.Proof.DatIdeal
import proofs.«164264_j18141941858697_2_alg».proof.Proof.Payload
import proofs.«164264_j18141941858697_2_alg».proof.Proof.LaneDense
import Idealize.ShloMosaic.Lib.Pipeline.Value

noncomputable section

namespace Cert.KernelIdeal.BlockValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)
open Cert.PairMlp (lo hi out laneDense)

variable (m : (ℓ : Loc nD τ sig) → Buf (Elt Ideal) ℓ)

/-! ## The arrays as the region finds them, in terms of the arguments -/

/-- The slot array is the argument: no host operation before the region writes it. -/
theorem V_slots (c : Dev nD) : (V m c main_arg0 : S8x256x256.Idx → EReal) = m ((c : Thread nD τ).loc main_arg0) := by
  show StableHlo.after (List.flatten [hostOps0]) (fun b => m (c, b)) (Proc.devRef .tc main_arg0) = _
  rw [List.flatten_cons, List.flatten_nil, List.append_nil]
  after_results

/-- So is the second weight matrix. -/
theorem V_w2 (c : Dev nD) : (V m c main_arg3 : S128x8.Idx → EReal) = m ((c : Thread nD τ).loc main_arg3) := by
  show StableHlo.after (List.flatten [hostOps0]) (fun b => m (c, b)) (Proc.devRef .tc main_arg3) = _
  rw [List.flatten_cons, List.flatten_nil, List.append_nil]
  after_results

/-- The upper half of the first weight matrix: its rows from 0. -/
theorem V_w1lo (c : Dev nD) : (V m c main_v0 : S256x128.Idx → EReal)
    = extractStridedSlice S256x128 ![0, 0] (m ((c : Thread nD τ).loc main_arg1)) slices_S512x128_S256x128_0_0 := by
  show StableHlo.after (List.flatten [hostOps0]) (fun b => m (c, b)) (Proc.devRef .tc main_v0) = _
  rw [List.flatten_cons, List.flatten_nil, List.append_nil]
  after_results

/-- The lower half: its rows from 256. -/
theorem V_w1hi (c : Dev nD) : (V m c main_v1 : S256x128.Idx → EReal)
    = extractStridedSlice S256x128 ![256, 0] (m ((c : Thread nD τ).loc main_arg1)) slices_S512x128_S256x128_256_0 := by
  show StableHlo.after (List.flatten [hostOps0]) (fun b => m (c, b)) (Proc.devRef .tc main_v1) = _
  rw [List.flatten_cons, List.flatten_nil, List.append_nil]
  after_results

/-- The first bias as one row. -/
theorem V_b1 (c : Dev nD) : (V m c main_v2 : S1x128.Idx → EReal)
    = shapeCast S1x128 (m ((c : Thread nD τ).loc main_arg2)) shapeCasts_S128_S1x128 := by
  show StableHlo.after (List.flatten [hostOps0]) (fun b => m (c, b)) (Proc.devRef .tc main_v2) = _
  rw [List.flatten_cons, List.flatten_nil, List.append_nil]
  after_results
  rfl

/-- The second bias as one row. -/
theorem V_b2 (c : Dev nD) : (V m c main_v3 : S1x8.Idx → EReal)
    = shapeCast S1x8 (m ((c : Thread nD τ).loc main_arg4)) shapeCasts_S8_S1x8 := by
  show StableHlo.after (List.flatten [hostOps0]) (fun b => m (c, b)) (Proc.devRef .tc main_v3) = _
  rw [List.flatten_cons, List.flatten_nil, List.append_nil]
  after_results
  rfl

/-- Entry (d, h) of the upper half is entry (d, h) of the first weight matrix. -/
theorem w1lo_apply (c : Dev nD) (d : Fin 256) (h : Fin 128) :
    (V m c main_v0 : S256x128.Idx → EReal) (ix2 d h) = m ((c : Thread nD τ).loc main_arg1) (ix2 (lo d) h) :=
  (congrFun (V_w1lo m c) (ix2 d h)).trans
    (slice2_axis0_apply 0 _ slices_S512x128_S256x128_0_0 d h (lo d) (Nat.zero_add _).symm)

/-- Entry (d, h) of the lower half is entry (256 + d, h) of the first weight matrix. -/
theorem w1hi_apply (c : Dev nD) (d : Fin 256) (h : Fin 128) :
    (V m c main_v1 : S256x128.Idx → EReal) (ix2 d h) = m ((c : Thread nD τ).loc main_arg1) (ix2 (hi d) h) :=
  (congrFun (V_w1hi m c) (ix2 d h)).trans
    (slice2_axis0_apply 256 _ slices_S512x128_S256x128_256_0 d h (hi d) rfl)

/-- Entry (0, h) of the first bias row is entry h of the first bias. -/
theorem b1_apply (c : Dev nD) (h : Fin 128) :
    (V m c main_v2 : S1x128.Idx → EReal) (ix2 (0 : Fin 1) h) = m ((c : Thread nD τ).loc main_arg2) (ix1 h) :=
  (congrFun (V_b1 m c) (ix2 (0 : Fin 1) h)).trans (shapeCast_a_1a_apply _ shapeCasts_S128_S1x128 0 h)

/-- Entry (0, r) of the second bias row is entry r of the second bias. -/
theorem b2_apply (c : Dev nD) (r : Fin 8) :
    (V m c main_v3 : S1x8.Idx → EReal) (ix2 (0 : Fin 1) r) = m ((c : Thread nD τ).loc main_arg4) (ix1 r) :=
  (congrFun (V_b2 m c) (ix2 (0 : Fin 1) r)).trans (shapeCast_a_1a_apply _ shapeCasts_S8_S1x8 0 r)

/-! ## Where each window's block lies, decided over the 32 grid points -/

/-- The two slot windows share the result block's batch; the first follows its row tile, the second its lane tile;
    both take every feature. The five other input windows are whole arrays. The result's block indices are in range. -/
theorem tile_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = win0_7.index t (2 : Fin 3)
    ∧ win0_1.index t (2 : Fin 3) = 0
    ∧ win0_7.index t (0 : Fin 3) < 8 ∧ win0_7.index t (1 : Fin 3) < 2 ∧ win0_7.index t (2 : Fin 3) < 2 :=
  (by decide +kernel : ∀ t : Fin grid0.N, _)

theorem whole_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every triple of block indices is some point's. -/
theorem tile_onto : ∀ (q0 : Fin 8) (q1 : Fin 2) (q2 : Fin 2), ∃ t : Fin cfg0.N, win0_7.index t = ![q0.val, q1.val, q2.val] :=
  (by decide +kernel : ∀ (q0 : Fin 8) (q1 : Fin 2) (q2 : Fin 2), ∃ t : Fin grid0.N, win0_7.index t = ![q0.val, q1.val, q2.val])

/-! ## The blocks read off the arrays -/

theorem iblk0_apply (c : Dev nD) (t : Fin cfg0.N) (y : S1x128x256.Idx) :
    iblk m c 0 t y = V m c main_arg0 (((cfg0.win 0).blk t).view.emb y) := rfl
theorem iblk1_apply (c : Dev nD) (t : Fin cfg0.N) (y : S1x128x256.Idx) :
    iblk m c 1 t y = V m c main_arg0 (((cfg0.win 1).blk t).view.emb y) := rfl
theorem iblk2_apply (c : Dev nD) (t : Fin cfg0.N) (y : S256x128.Idx) :
    iblk m c 2 t y = V m c main_v0 (((cfg0.win 2).blk t).view.emb y) := rfl
theorem iblk3_apply (c : Dev nD) (t : Fin cfg0.N) (y : S256x128.Idx) :
    iblk m c 3 t y = V m c main_v1 (((cfg0.win 3).blk t).view.emb y) := rfl
theorem iblk4_apply (c : Dev nD) (t : Fin cfg0.N) (y : S1x128.Idx) :
    iblk m c 4 t y = V m c main_v2 (((cfg0.win 4).blk t).view.emb y) := rfl
theorem iblk5_apply (c : Dev nD) (t : Fin cfg0.N) (y : S128x8.Idx) :
    iblk m c 5 t y = V m c main_arg3 (((cfg0.win 5).blk t).view.emb y) := rfl
theorem iblk6_apply (c : Dev nD) (t : Fin cfg0.N) (y : S1x8.Idx) :
    iblk m c 6 t y = V m c main_v3 (((cfg0.win 6).blk t).view.emb y) := rfl

/-- Entry (u, p, d) of the first slot block sits in the slot array at batch B, row I = 128·(row tile) + p. -/
theorem emb_rows (t : Fin cfg0.N) (u : Fin 1) (p : Fin 128) (d : Fin 256) (B : Fin 8) (I : Fin 256)
    (hB : B.val = win0_7.index t (0 : Fin 3)) (hI : I.val = win0_7.index t (1 : Fin 3) * 128 + p.val) :
    (((cfg0.win 0).blk t).view.emb (ix3 u p d) : S8x256x256.Idx) = ix3 B I d := by
  obtain ⟨e0, e1, e2, -⟩ := tile_facts t
  funext a; apply Fin.ext
  match a with
  | ⟨0, _⟩ => show win0_0.index t (0 : Fin 3) * 1 + 1 * u.val = B.val; have := u.isLt; omega
  | ⟨1, _⟩ => show win0_0.index t (1 : Fin 3) * 128 + 1 * p.val = I.val; omega
  | ⟨2, _⟩ => show win0_0.index t (2 : Fin 3) * 256 + 1 * d.val = d.val; omega

/-- Entry (u, q, d) of the second slot block sits in the slot array at batch B, row J = 128·(lane tile) + q. -/
theorem emb_partners (t : Fin cfg0.N) (u : Fin 1) (q : Fin 128) (d : Fin 256) (B : Fin 8) (J : Fin 256)
    (hB : B.val = win0_7.index t (0 : Fin 3)) (hJ : J.val = win0_7.index t (2 : Fin 3) * 128 + q.val) :
    (((cfg0.win 1).blk t).view.emb (ix3 u q d) : S8x256x256.Idx) = ix3 B J d := by
  obtain ⟨-, -, -, e0, e1, e2, -⟩ := tile_facts t
  funext a; apply Fin.ext
  match a with
  | ⟨0, _⟩ => show win0_1.index t (0 : Fin 3) * 1 + 1 * u.val = B.val; have := u.isLt; omega
  | ⟨1, _⟩ => show win0_1.index t (1 : Fin 3) * 128 + 1 * q.val = J.val; omega
  | ⟨2, _⟩ => show win0_1.index t (2 : Fin 3) * 256 + 1 * d.val = d.val; omega

/-- Entry (u, p, l) of the result block sits in the result array at batch B, row I, lane L = 1024·(lane tile) + l. -/
theorem emb_result (t : Fin cfg0.N) (u : Fin 1) (p : Fin 128) (l : Fin 1024) (B : Fin 8) (I : Fin 256) (L : Fin 2048)
    (hB : B.val = win0_7.index t (0 : Fin 3)) (hI : I.val = win0_7.index t (1 : Fin 3) * 128 + p.val)
    (hL : L.val = win0_7.index t (2 : Fin 3) * 1024 + l.val) :
    (((cfg0.win 7).blk t).view.emb (ix3 u p l) : S8x256x2048.Idx) = ix3 B I L := by
  funext a; apply Fin.ext
  match a with
  | ⟨0, _⟩ => show win0_7.index t (0 : Fin 3) * 1 + 1 * u.val = B.val; have := u.isLt; omega
  | ⟨1, _⟩ => show win0_7.index t (1 : Fin 3) * 128 + 1 * p.val = I.val; omega
  | ⟨2, _⟩ => show win0_7.index t (2 : Fin 3) * 1024 + 1 * l.val = L.val; omega

theorem emb_w1lo (t : Fin cfg0.N) (y : S256x128.Idx) : (((cfg0.win 2).blk t).view.emb y : S256x128.Idx) = y := by
  obtain ⟨e0, e1, -⟩ := whole_facts t
  funext a; apply Fin.ext
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem emb_w1hi (t : Fin cfg0.N) (y : S256x128.Idx) : (((cfg0.win 3).blk t).view.emb y : S256x128.Idx) = y := by
  obtain ⟨-, -, e0, e1, -⟩ := whole_facts t
  funext a; apply Fin.ext
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem emb_b1 (t : Fin cfg0.N) (y : S1x128.Idx) : (((cfg0.win 4).blk t).view.emb y : S1x128.Idx) = y := by
  obtain ⟨-, -, -, -, e0, e1, -⟩ := whole_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem emb_w2 (t : Fin cfg0.N) (y : S128x8.Idx) : (((cfg0.win 5).blk t).view.emb y : S128x8.Idx) = y := by
  obtain ⟨-, -, -, -, -, -, e0, e1, -⟩ := whole_facts t
  funext a; apply Fin.ext
  match a with
  | ⟨0, _⟩ => show win0_5.index t (0 : Fin 2) * 128 + 1 * (y 0).val = (y 0).val; omega
  | ⟨1, _⟩ => show win0_5.index t (1 : Fin 2) * 8 + 1 * (y 1).val = (y 1).val; omega

theorem emb_b2 (t : Fin cfg0.N) (y : S1x8.Idx) : (((cfg0.win 6).blk t).view.emb y : S1x8.Idx) = y := by
  obtain ⟨-, -, -, -, -, -, -, -, e0, e1⟩ := whole_facts t
  funext a; apply Fin.ext
  match a with
  | ⟨0, _⟩ => show win0_6.index t (0 : Fin 2) * 1 + 1 * (y 0).val = (y 0).val; omega
  | ⟨1, _⟩ => show win0_6.index t (1 : Fin 2) * 8 + 1 * (y 1).val = (y 1).val; omega

/-! ## The body's value at a block entry is the relation score of the pair it stands for -/

/-- Seven blocks that hold, entry by entry, row I and row J of batch B of the slots, the two halves of the first weight
    matrix, the biases and the second weight matrix, give at (0, p, q·8 + r) the score of (B, I, J, r). -/
theorem point_value (slots : S8x256x256.Idx → EReal) (W1 : S512x128.Idx → EReal) (b1 : S128.Idx → EReal)
    (W2 : S128x8.Idx → EReal) (b2 : S8.Idx → EReal)
    (x0 x1 : Vec Ideal S1x128x256 .f32) (x2 x3 : Vec Ideal S256x128 .f32) (x4 : Vec Ideal S1x128 .f32)
    (x5 : Vec Ideal S128x8 .f32) (x6 : Vec Ideal S1x8 .f32)
    (B : Fin 8) (I J : Fin 256) (p q : Fin 128) (r : Fin 8) (l : Fin 1024) (hl : l.val = q.val * 8 + r.val)
    (h0 : ∀ d : Fin 256, x0 (ix3 (0 : Fin 1) p d) = slots (ix3 B I d))
    (h1 : ∀ d : Fin 256, x1 (ix3 (0 : Fin 1) q d) = slots (ix3 B J d))
    (h2 : ∀ (d : Fin 256) (h : Fin 128), x2 (ix2 d h) = W1 (ix2 (lo d) h))
    (h3 : ∀ (d : Fin 256) (h : Fin 128), x3 (ix2 d h) = W1 (ix2 (hi d) h))
    (h4 : ∀ h : Fin 128, x4 (ix2 (0 : Fin 1) h) = b1 (ix1 h))
    (h5 : ∀ (h : Fin 128) (r : Fin 8), x5 (ix2 h r) = W2 (ix2 h r))
    (h6 : ∀ r : Fin 8, x6 (ix2 (0 : Fin 1) r) = b2 (ix1 r)) :
    k0_pay1 (k0_pay2 x0 x1 x2 x3 x4 x5 x6) (ix3 (0 : Fin 1) p l) = out slots W1 b1 W2 b2 (ix4 B I J r) := by
  rw [Cert.PairMlp.pay_apply_of_lane x0 x1 x2 x3 x4 x5 x6 p q r l hl, Cert.PairMlp.out_ix4]
  simp only [h0, h1, h2, h3, h4, h5, h6]

/-- The lane-dense arrangement at (B, I, L) is the score of (B, I, L / 8, L % 8). -/
theorem laneDense_ix3 (slots : S8x256x256.Idx → EReal) (W1 : S512x128.Idx → EReal) (b1 : S128.Idx → EReal)
    (W2 : S128x8.Idx → EReal) (b2 : S8.Idx → EReal) (B : Fin 8) (I : Fin 256) (L : Fin 2048) :
    laneDense slots W1 b1 W2 b2 (ix3 B I L)
      = out slots W1 b1 W2 b2 (ix4 B I (⟨L.val / 8, by have := L.isLt; omega⟩ : Fin 256) (⟨L.val % 8, Nat.mod_lt _ (by decide)⟩ : Fin 8)) := rfl

/-- THE BODY'S VALUE AT ENTRY y OF THE RESULT BLOCK OF POINT t is the lane-dense arrangement at the array index y stands
    for. -/
theorem block_value (c : Dev nD) (t : Fin cfg0.N) (y : S1x128x1024.Idx) :
    k0_pay1 (k0_pay2 (iblk m c 0 t) (iblk m c 1 t) (iblk m c 2 t) (iblk m c 3 t) (iblk m c 4 t) (iblk m c 5 t) (iblk m c 6 t)) y
      = laneDense (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 7).blk t).view.emb y : S8x256x2048.Idx) := by
  obtain ⟨u, p, l, rfl⟩ : ∃ (u : Fin 1) (p : Fin 128) (l : Fin 1024), y = ix3 u p l := ⟨y 0, y 1, y 2, eq_ix3 y⟩
  obtain rfl : u = 0 := Subsingleton.elim _ _
  obtain ⟨-, -, -, -, -, -, g0, g1, g2⟩ := tile_facts t
  have hp := p.isLt
  have hlt := l.isLt
  -- the array index the entry stands for, and the pair it encodes
  let B : Fin 8 := ⟨win0_7.index t (0 : Fin 3), g0⟩
  let I : Fin 256 := ⟨win0_7.index t (1 : Fin 3) * 128 + p.val, by omega⟩
  let L : Fin 2048 := ⟨win0_7.index t (2 : Fin 3) * 1024 + l.val, by omega⟩
  let J : Fin 256 := ⟨L.val / 8, by have := L.isLt; omega⟩
  let r : Fin 8 := ⟨L.val % 8, Nat.mod_lt _ (by decide)⟩
  let q : Fin 128 := ⟨l.val / 8, by omega⟩
  have hl : l.val = q.val * 8 + r.val := by
    show l.val = l.val / 8 * 8 + (win0_7.index t (2 : Fin 3) * 1024 + l.val) % 8
    omega
  have hJ : J.val = win0_7.index t (2 : Fin 3) * 128 + q.val := by
    show (win0_7.index t (2 : Fin 3) * 1024 + l.val) / 8 = win0_7.index t (2 : Fin 3) * 128 + l.val / 8
    omega
  rw [emb_result t 0 p l B I L rfl rfl rfl, laneDense_ix3]
  refine point_value _ _ _ _ _ (iblk m c 0 t) (iblk m c 1 t) (iblk m c 2 t) (iblk m c 3 t) (iblk m c 4 t) (iblk m c 5 t)
    (iblk m c 6 t) B I J p q r l hl ?_ ?_ ?_ ?_ ?_ ?_ ?_
  · intro d
    exact (iblk0_apply m c t _).trans ((congrArg (V m c main_arg0) (emb_rows t 0 p d B I rfl rfl)).trans
      (congrFun (V_slots m c) _))
  · intro d
    exact (iblk1_apply m c t _).trans ((congrArg (V m c main_arg0) (emb_partners t 0 q d B J rfl hJ)).trans
      (congrFun (V_slots m c) _))
  · intro d h
    exact (iblk2_apply m c t _).trans ((congrArg (V m c main_v0) (emb_w1lo t (ix2 d h))).trans (w1lo_apply m c d h))
  · intro d h
    exact (iblk3_apply m c t _).trans ((congrArg (V m c main_v1) (emb_w1hi t (ix2 d h))).trans (w1hi_apply m c d h))
  · intro h
    exact (iblk4_apply m c t _).trans ((congrArg (V m c main_v2) (emb_b1 t (ix2 (0 : Fin 1) h))).trans (b1_apply m c h))
  · intro h r'
    exact (iblk5_apply m c t _).trans ((congrArg (V m c main_arg3) (emb_w2 t (ix2 h r'))).trans
      (congrFun (V_w2 m c) _))
  · intro r'
    exact (iblk6_apply m c t _).trans ((congrArg (V m c main_v3) (emb_b2 t (ix2 (0 : Fin 1) r'))).trans (b2_apply m c r'))

/-! ## What each point writes back, the cover, and the array -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- WHAT POINT t WRITES BACK is block t of the lane-dense arrangement of the scores of the argument arrays. -/
theorem flushed_eq (c : Dev nD) (t : Fin cfg0.N) :
    (dats m 0 c).flushed 7 t = ((cfg0.win 7).blk t).view.read (Elt Ideal)
      (laneDense (m ((c : Thread nD τ).loc main_arg0)) (m ((c : Thread nD τ).loc main_arg1))
        (m ((c : Thread nD τ).loc main_arg2)) (m ((c : Thread nD τ).loc main_arg3))
        (m ((c : Thread nD τ).loc main_arg4))) := by
  show (cfg0.win 7).cut (grid0.coords t) ((dats m 0 c).after 7 t) = _
  rw [after_7]
  unfold outBlk
  rw [View.canon_unit_zero zeros3]
  simp only [View.ld_unit_zero (S := S1x128x256) zeros3, View.ld_unit_zero (S := S256x128) zeros2,
    View.ld_unit_zero (S := S1x128) zeros2, View.ld_unit_zero (S := S128x8) zeros2, View.ld_unit_zero (S := S1x8) zeros2]
  funext y
  exact block_value m c t y

/-- An index of the result array is in point t's block iff each coordinate is in the block's range on its axis. -/
theorem mem_blk (t : Fin cfg0.N) (i : S8x256x2048.Idx) :
    i ∈ ((cfg0.win 7).blk t).view.set ↔ ∀ a : Fin 3, win0_7.index t a * S1x128x1024.size a ≤ (i a).val
      ∧ (i a).val < win0_7.index t a * S1x128x1024.size a + S1x128x1024.size a := by
  show i ∈ ((View.whole main_v4).slice (win0_7.rect t)).set ↔ _
  rw [View.set_slice_whole, Rect.mem_set_unit]
  exact Iff.rfl

/-- The 32 blocks tile the result array: index (b, r, l) lies in the block of the point (b, r / 128, l / 1024). -/
theorem cover (i : S8x256x2048.Idx) :
    ∃ t : Fin cfg0.N, (cfg0.win 7).flush t = true ∧ i ∈ ((cfg0.win 7).blk t).view.set := by
  have hi0 : (i 0).val < 8 := (i 0).isLt
  have hi1 : (i 1).val < 256 := (i 1).isLt
  have hi2 : (i 2).val < 2048 := (i 2).isLt
  obtain ⟨t, ht⟩ := tile_onto ⟨(i 0).val, hi0⟩ ⟨(i 1).val / 128, by omega⟩ ⟨(i 2).val / 1024, by omega⟩
  have q0 : win0_7.index t (0 : Fin 3) = (i 0).val := congrFun ht 0
  have q1 : win0_7.index t (1 : Fin 3) = (i 1).val / 128 := congrFun ht 1
  have q2 : win0_7.index t (2 : Fin 3) = (i 2).val / 1024 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 1024 ≤ (i 2).val ∧ (i 2).val < win0_7.index t (2 : Fin 3) * 1024 + 1024; omega

/-- THE RESULT ARRAY AFTER THE REGION is the lane-dense arrangement of the relation scores of the argument arrays. -/
theorem final7 (c : Dev nD) :
    (dats m 0 c).arrAt 7 cfg0.N
      = laneDense (m ((c : Thread nD τ).loc main_arg0)) (m ((c : Thread nD τ).loc main_arg1))
          (m ((c : Thread nD τ).loc main_arg2)) (m ((c : Thread nD τ).loc main_arg3))
          (m ((c : Thread nD τ).loc main_arg4)) :=
  (dats m 0 c).arrAt_eq_of_cover 7 _ (fun t _ => flushed_eq m c t) cover

end Cert.KernelIdeal.BlockValue

end
-- ==== Proof.RefIsSpec.lean ====
/-
  The reference program computes the pair-MLP relation scores of `Cert.PairMlp.out`.

  Read one element at a time, the reference's result at `(b, i, j, r)` is
     1 / (1 + exp (-( (∑ h, max ((P_i(b,i,h) + P_j(b,j,h)) + b1 h) 0 * W2 (h, r)) + b2 r )))
  with the two projections the contractions of a slot's features against rows 0 … 255 and rows 256 … 511 of W1:
  it adds the two projections first and the bias last, where the specification adds the bias to the first projection
  and the second projection last.  The two groupings are equal because addition of extended reals is commutative and
  associative (no finiteness is needed), and `1 / (1 + exp (-x))` is the logistic function by definition.
-/
import proofs.«164264_j18141941858697_2_alg».proof.Proof.Spec
import proofs.«164264_j18141941858697_2_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx Cert.PairMlp

/-- The single-precision word of `1.0` denotes the extended real `1`. -/
theorem ofBits_one_f32 : Ideal.ofBits .f32 0x3F800000#32 = 1 := by
  simp [Ideal.ofBits, Ideal.ieee, -EReal.coe_mul]; norm_num

/-- The reference's result, as the last stage of its run, is the specification's function of the five arguments. -/
theorem ref_eq (a0 : (⟨S8x256x256, .f32⟩ : BufTy).Contents (Elt Ideal)) (a1 : (⟨S512x128, .f32⟩ : BufTy).Contents (Elt Ideal))
    (a2 : (⟨S128, .f32⟩ : BufTy).Contents (Elt Ideal)) (a3 : (⟨S128x8, .f32⟩ : BufTy).Contents (Elt Ideal))
    (a4 : (⟨S8, .f32⟩ : BufTy).Contents (Elt Ideal)) :
    val_main_v22 (F := Ideal) a0 a1 a2 a3 a4 = Cert.PairMlp.out a0 a1 a2 a3 a4 := by
  funext i
  -- where each stage reads its operands: the composed index maps, coordinate by coordinate
  have eI : ∀ (h : Fin 128) (d : Fin 256),
      lidx_main_v1 (idx_main_v4 (idx_main_v6 (lidx_main_v13 i h))) d = ix3 (i 0) (i 1) d := fun h d =>
    funext fun a => Fin.ext (by match a with | ⟨0, _⟩ => rfl | ⟨1, _⟩ => rfl | ⟨2, _⟩ => rfl)
  have eIw : ∀ (h : Fin 128) (d : Fin 256),
      idx_main_v0 (ridx_main_v1 (idx_main_v4 (idx_main_v6 (lidx_main_v13 i h))) d) = ix2 (lo d) h := fun h d =>
    funext fun a => Fin.ext (by match a with | ⟨0, _⟩ => rfl | ⟨1, _⟩ => rfl)
  have eJ : ∀ (h : Fin 128) (d : Fin 256),
      lidx_main_v3 (idx_main_v5 (idx_main_v7 (lidx_main_v13 i h))) d = ix3 (i 0) (i 2) d := fun h d =>
    funext fun a => Fin.ext (by match a with | ⟨0, _⟩ => rfl | ⟨1, _⟩ => rfl | ⟨2, _⟩ => rfl)
  have eJw : ∀ (h : Fin 128) (d : Fin 256),
      idx_main_v2 (ridx_main_v3 (idx_main_v5 (idx_main_v7 (lidx_main_v13 i h))) d) = ix2 (hi d) h := fun h d =>
    funext fun a => Fin.ext (by match a with | ⟨0, _⟩ => rfl | ⟨1, _⟩ => rfl)
  have eb1 : ∀ h : Fin 128, idx_main_v9 (idx_main_v10 (lidx_main_v13 i h)) = ix1 h := fun h =>
    funext fun a => Fin.ext (by match a with | ⟨0, _⟩ => rfl)
  have eW2 : ∀ h : Fin 128, ridx_main_v13 i h = ix2 h (i 3) := fun h =>
    funext fun a => Fin.ext (by match a with | ⟨0, _⟩ => rfl | ⟨1, _⟩ => rfl)
  have eb2 : idx_main_v14 (idx_main_v15 i) = ix1 (i 3) :=
    funext fun a => Fin.ext (by match a with | ⟨0, _⟩ => rfl)
  -- the pointwise stages from the result down to the second layer's contraction
  rw [val_main_v22_apply, val_main_v21_apply, val_main_cst_0_apply, val_main_v20_apply, val_main_v19_apply,
    val_main_cst_apply, val_main_v18_apply, val_main_v17_apply, val_main_v16_apply, val_main_v13_apply,
    val_main_v15_apply, val_main_v14_apply]
  -- the stages under the contraction's sum
  simp only [val_main_v12_apply, val_main_v11_apply, val_main_v8_apply, val_main_v6_apply, val_main_v4_apply,
    val_main_v1_apply, val_main_v0_apply, val_main_v7_apply, val_main_v5_apply, val_main_v3_apply, val_main_v2_apply,
    val_main_v10_apply, val_main_v9_apply, val_main_call0_v0_apply, val_main_call0_cst_apply]
  -- the indices as coordinates, and every operation as the extended reals' own
  simp only [eI, eIw, eJ, eJw, eb1, eW2, eb2, Ideal.hostDivf_def, Ideal.addf_def, Ideal.hostUnary_exp_def,
    Ideal.hostNegf_def, Ideal.negf_def, Ideal.maximumf_def, Ideal.ofBits_def, Ideal.ofBits_zero_f32, ofBits_one_f32]
  unfold Cert.PairMlp.out Cert.PairMlp.hidden Cert.PairMlp.projI Cert.PairMlp.projJ Ideal.logistic
  -- the one algebraic step: (P_i + P_j) + b1 = (P_i + b1) + P_j, under the rectifier and the sum over hidden units
  refine congrArg (fun s => Ideal.div 1 (1 + Ideal.exp (-(s + a4 (ix1 (i 3)))))) (Finset.sum_congr rfl fun h _ => ?_)
  exact congrArg (fun x => max x 0 * a3 (ix2 h (i 3))) (add_right_comm _ _ _)

end Cert.ReferenceIdeal.RefValue

end
-- ==== Proof.RefRun.lean ====
/-
  The reference program's run, stated against the specification: every weakly fair execution terminates with the
  result array holding the pair-MLP relation scores `Cert.PairMlp.out` of the five argument arrays as they were at
  launch, and with the arguments unchanged.  It is the reference's run with its result term read as the
  specification's function (`ref_eq`).
-/
import proofs.«164264_j18141941858697_2_alg».proof.Proof.RefIsSpec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference's run ends with its result at the specification of its arguments, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) =
          Cert.PairMlp.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨by rw [(h c).1, Read.val_main_v22_eq, ref_eq], (h c).2⟩)
    (Cert.ReferenceIdeal.Value.run (F := Ideal) m ρ)

end Cert.ReferenceIdeal.RefValue

end
-- ==== Proof.lean ====
/-
  The certificate of a fused pair-scoring kernel against its reference.

  For slots s (8 batches of 256 slots of 256 features), a first layer W1, b1 (512 -> 128) and a second layer
  W2, b2 (128 -> 8), both programs compute for every batch b, ordered pair of slots (i, j) and relation r

      out(b,i,j,r) = logistic( sum_h max( (sum_d s(b,i,d) W1(d,h) + b1(h)) + sum_d s(b,j,d) W1(256+d,h), 0 ) W2(h,r) + b2(r) ).

  The kernel tiles the pairs 128 by 128 over a grid of 8 x 2 x 2 points, adds the first bias to the i-projection
  before the pairwise sum, and writes eight relations to a pair along the lanes of an 8 x 256 x 2048 array that a final
  reshape turns into the result; the reference projects every slot once, adds the bias after the pairwise sum, and
  spells the logistic function as 1 / (1 + exp(-x)). Over the extended reals the two orders of addition agree because
  addition there is commutative and associative (no finiteness of the inputs is needed), a matrix product into a zero
  accumulator is the plain sum of products, a change of float format is the identity, and the logistic function is by
  definition 1 / (1 + exp(-x)).

  The three frames: each program runs to the end, faults nowhere, and leaves its five argument arrays unchanged. The
  kernel's slot array is read through two windows of the pipeline; each holds half a share of it, enough to read.
  The idealization rewrote no operation, so it is the kernel's own text read over the extended reals.
-/
import proofs.«164264_j18141941858697_2_alg».proof.Defs
import proofs.«164264_j18141941858697_2_alg».proof.Proof.Gen.Kernel
import proofs.«164264_j18141941858697_2_alg».proof.Proof.Gen.KernelIdeal
import proofs.«164264_j18141941858697_2_alg».proof.Proof.Gen.ReferenceIdeal
import proofs.«164264_j18141941858697_2_alg».proof.Proof.Gen.Pre_finite_inputs
import proofs.«164264_j18141941858697_2_alg».proof.Proof.RunBits
import proofs.«164264_j18141941858697_2_alg».proof.Proof.ValueIdeal
import proofs.«164264_j18141941858697_2_alg».proof.Proof.KernelValue
import proofs.«164264_j18141941858697_2_alg».proof.Proof.RefRun
import Idealize.ShloMosaic.Adequacy
import Idealize.ShloMosaic.Init

noncomputable section

namespace Cert.Proof

open Idealize.ShloMosaic Idealize.ShloMosaic.TcCoe Idealize.SL.Sem

variable [hK : Cert.Kernel.Facts] [hKI : Cert.KernelIdeal.Facts] [hRI : Cert.ReferenceIdeal.Facts] [hPre : Cert.Pre_finite_inputs.Facts]

/-- The word-level kernel program runs and leaves its arguments unchanged. -/
theorem frame_kernel : Cert.frame_Kernel := fun m ρ _ => Cert.Kernel.Body.frame m ρ

/-- So does the kernel program read over the extended reals. -/
theorem frame_kernelIdeal : Cert.frame_KernelIdeal := fun m ρ _ => Cert.KernelIdeal.Body.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result buffer ends at the specification of its argument arrays: the region's write-backs make
    the lane-dense array, and the final reshape regroups its lanes into pairs and relations. -/
theorem kernel_result (m : (ℓ : Loc Cert.KernelIdeal.nD Cert.KernelIdeal.τ Cert.KernelIdeal.sig) → Buf (Elt Ideal) ℓ) (c : Dev Cert.KernelIdeal.nD) :
    Cert.KernelIdeal.Body.Vend m c (Proc.devRef .tc Cert.KernelIdeal.main_v5)
      = Cert.PairMlp.out (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  rw [Cert.KernelIdeal.Body.Vend_v5, Cert.KernelIdeal.BlockValue.final7, Cert.PairMlp.shapeCast_laneDense]

/-- Run from memories that agree on the arguments, the two idealized programs end with one result: the specification
    of the arguments. -/
theorem algebraic : Cert.algebraic_KernelIdeal_ReferenceIdeal := by
  intro m ρ m' ρ' _ hagree
  refine ⟨fun c => Cert.PairMlp.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono (fun _ h c => ⟨(h c).1.trans (kernel_result m c), (h c).2⟩)
      (Cert.KernelIdeal.Body.run_main (F := Ideal) m ρ)
  · refine (θ_run Cert.ReferenceIdeal.defs _ _).mono (fun _ h c => ⟨?_, (h c).2⟩) (Cert.ReferenceIdeal.RefValue.run_spec m' ρ')
    rw [(h c).1, (hagree c).1, (hagree c).2.1, (hagree c).2.2.1, (hagree c).2.2.2.1, (hagree c).2.2.2.2]

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel (hK := Cert.Kernel.Gen.facts) (hKI := Cert.KernelIdeal.Gen.facts) (hRI := Cert.ReferenceIdeal.Gen.facts) (hPre := Cert.Pre_finite_inputs.Gen.facts),
  frame_kernelIdeal (hK := Cert.Kernel.Gen.facts) (hKI := Cert.KernelIdeal.Gen.facts) (hRI := Cert.ReferenceIdeal.Gen.facts) (hPre := Cert.Pre_finite_inputs.Gen.facts),
  frame_referenceIdeal (hK := Cert.Kernel.Gen.facts) (hKI := Cert.KernelIdeal.Gen.facts) (hRI := Cert.ReferenceIdeal.Gen.facts) (hPre := Cert.Pre_finite_inputs.Gen.facts),
  trivial,
  algebraic (hK := Cert.Kernel.Gen.facts) (hKI := Cert.KernelIdeal.Gen.facts) (hRI := Cert.ReferenceIdeal.Gen.facts) (hPre := Cert.Pre_finite_inputs.Gen.facts)⟩

end Cert.Proof

end
